-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S4x2048x2048 : Shape := ⟨3, ![4, 2048, 2048]⟩
abbrev S1x2048x1024 : Shape := ⟨3, ![1, 2048, 1024]⟩
abbrev S1x256x2048 : Shape := ⟨3, ![1, 256, 2048]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x2048x2048, .f32⟩
  | .hbm, ⟨15, _⟩ => ⟨S4x2048x1024, .f32⟩
  | .hbm, ⟨16, _⟩ => ⟨S4x2048x2048, .f32⟩
  | .local _ .vmem, ⟨0, _⟩ => ⟨S1x2048x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x256x2048, .f32⟩
  | .local _ .vmem, ⟨10, _⟩ => ⟨S1x256x2048, .f32⟩
  | .local _ .vmem, ⟨11, _⟩ => ⟨S1x256x1024, .f32⟩
  | .local _ .vmem, ⟨12, _⟩ => ⟨S1x256x1024, .f32⟩
  | .local _ .vmem, ⟨13, _⟩ => ⟨S1x256x2048, .f32⟩
  | .local _ .vmem, ⟨14, _⟩ => ⟨S1x256x2048, .f32⟩
  | .local _ .vmem, ⟨15, _⟩ => ⟨S1024x1024, .bf16⟩
  | .local _ .vmem, ⟨16, _⟩ => ⟨S2048x1024, .bf16⟩
  | .local _ .vmem, ⟨17, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  broadcasts_S1x1024_S256x1024 : S1x1024.Broadcasts S256x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  reduces_S256x1024_S256 : S256x1024.Reduces [1] S256
  broadcasts_S256x1_S256x1024 : S256x1.Broadcasts S256x1024
  inb_S1x256x2048_S1x256x1024_0_0_0 : ∀ a, (![0, 0, 0] : Fin 3 → Nat) a + S1x256x1024.size a ≤ S1x256x2048.size a
  inb_S1x256x2048_S1x256x1024_0_0_1024 : ∀ a, (![0, 0, 1024] : Fin 3 → Nat) a + S1x256x1024.size a ≤ S1x256x2048.size a
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S4x2048x2048.size a
  hwx0_9 : ∀ i : grid0.Coords, EltTy.bits .f32 = 32 ∨ (Rect.block (s := S4x2048x2048) S1x256x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S4x2048x1024.size a
  hwx0_10 : ∀ i : grid0.Coords, EltTy.bits .f32 = 32 ∨ (Rect.block (s := S4x2048x1024) S1x256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x2048.size a ≤ S4x2048x2048.size a
  hwx0_11 : ∀ i : grid0.Coords, EltTy.bits .f32 = 32 ∨ (Rect.block (s := S4x2048x2048) S1x256x2048.size (cc0_transform_11 i) (hinb0_11 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S1x256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1x256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S1x256x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S1x1x1024, .f32⟩
  | .hbm, ⟨66, _⟩ => ⟨S4x2048x1024, .f32⟩
  | .hbm, ⟨67, _⟩ => ⟨S4x2048x1024, .f32⟩
  | .hbm, ⟨68, _⟩ => ⟨S1x1x1024, .f32⟩
  | .hbm, ⟨69, _⟩ => ⟨S4x2048x1024, .f32⟩
  | .hbm, ⟨70, _⟩ => ⟨S4x2048x1024, .f32⟩
  | .hbm, ⟨71, _⟩ => ⟨S4x2048x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  concatenates_S4x2048x1024_S4x2048x1024_S4x2048x2048_d2 : Shape.Concatenates [S4x2048x1024, S4x2048x1024] S4x2048x2048 2
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelPieces.lean ====
import proofs.«106411_j83932250898666_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What one grid point leaves in the three output blocks and the three scratch arrays, as functions of the blocks it
    loads. A point of a batch's first query tile first writes the scratch arrays (the bf16 copy of W_q, the batch's keys and
    values) and then reads them back; a later tile reads what the point before left. In both cases the three output blocks
    are the same three functions of the loaded blocks and of the scratch contents the point ends with. -/

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 256 rows of the batch's block of x that the point of query tile `i 1` reads: rows 256·(i 1) … 256·(i 1) + 255. -/
abbrev xrows (i : grid0.Coords) (x0 : Vec F S1x2048x1024 .f32) : Vec F S1x256x1024 .f32 :=
  View.ld x0 (Rect.unit (s := S1x2048x1024) (k0_off1 i) S1x256x1024.size (k0_off1_inb i))

/-- The block of attention weights a point writes: the softmax rows of its 256 queries against the scratch keys. -/
def wTile (i : grid0.Coords) (x0 : Vec F S1x2048x1024 .f32) (bq : Vec F S1x1024 .f32)
    (s0 : Vec F S1024x1024 .bf16) (s1 : Vec F S2048x1024 .bf16) : Vec F S1x256x2048 .f32 :=
  k0_pay11 (xrows i x0) s0 bq s1

/-- The block of attended values a point writes: its weights times the scratch values. -/
def aTile (i : grid0.Coords) (x0 : Vec F S1x2048x1024 .f32) (bq : Vec F S1x1024 .f32)
    (s0 : Vec F S1024x1024 .bf16) (s1 s2 : Vec F S2048x1024 .bf16) : Vec F S1x256x1024 .f32 :=
  k0_pay2 s2 (k0_pay12 (xrows i x0) s0 bq s1) (constant S256x1024 .f32 0x00000000#32)

/-- The block of the first result a point writes: its rows of x in columns 0 … 1023, their normalised residual in
    columns 1024 … 2047 (two stores). -/
def oTile (i : grid0.Coords) (x0 : Vec F S1x2048x1024 .f32) (bq g be : Vec F S1x1024 .f32)
    (s0 : Vec F S1024x1024 .bf16) (s1 s2 : Vec F S2048x1024 .bf16) : Vec F S1x256x2048 .f32 :=
  View.canon
    [⟨Rect.unit (s := S1x256x2048) ![0, 0, 1024] S1x256x1024.size inb_S1x256x2048_S1x256x1024_0_0_1024,
        k0_pay4 (k0_pay9 (xrows i x0)) s2 (k0_pay12 (xrows i x0) s0 bq s1) (constant S256x1024 .f32 0x00000000#32) g be⟩,
      ⟨Rect.unit (s := S1x256x2048) ![0, 0, 0] S1x256x1024.size inb_S1x256x2048_S1x256x1024_0_0_0,
        k0_pay3 (k0_pay9 (xrows i x0))⟩]

/-- A later tile's weights block. -/
theorem weights_later (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : ¬cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (xs0 : Vec F S1024x1024 .bf16) (xs1 : Vec F S2048x1024 .bf16) (xs2 : Vec F S2048x1024 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 = wTile i x0 x4 xs0 xs1 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2)]
  unfold kernelRun0_B
  dsimp only
  sl_unfold_words
  rw [View.canon_unit_zero hz3]
  simp only [View.readAt_eq_ld, harg2.read_unread, harg4.read_unread, harg6.read_unread, harg8.read_unread, harg9.read_unread, harg10.read_unread, harg14.read_unread, harg15.read_unread, harg16.read_unread,
    View.ld_unit_zero (S := S1024x1024) hz2, View.ld_unit_zero (S := S1x1024) hz2, View.ld_unit_zero (S := S2048x1024) hz2]
  rfl

/-- A later tile's attended-values block. -/
theorem attended_later (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : ¬cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (xs0 : Vec F S1024x1024 .bf16) (xs1 : Vec F S2048x1024 .bf16) (xs2 : Vec F S2048x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 = aTile i x0 x4 xs0 xs1 xs2 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2)]
  unfold kernelRun0_B
  dsimp only
  sl_unfold_words
  rw [View.canon_unit_zero hz3]
  simp only [View.readAt_eq_ld, harg2.read_unread, harg4.read_unread, harg6.read_unread, harg8.read_unread, harg9.read_unread, harg10.read_unread, harg14.read_unread, harg15.read_unread, harg16.read_unread,
    View.ld_unit_zero (S := S1024x1024) hz2, View.ld_unit_zero (S := S1x1024) hz2, View.ld_unit_zero (S := S2048x1024) hz2]
  rfl

/-- A later tile's block of the first result. -/
theorem result_later (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : ¬cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (xs0 : Vec F S1024x1024 .bf16) (xs1 : Vec F S2048x1024 .bf16) (xs2 : Vec F S2048x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 = oTile i x0 x4 x7 x8 xs0 xs1 xs2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2)]
  unfold kernelRun0_B
  dsimp only
  sl_unfold_words
  simp only [View.readAt_eq_ld, harg2.read_unread, harg4.read_unread, harg6.read_unread, harg8.read_unread, harg9.read_unread, harg10.read_unread, harg14.read_unread, harg15.read_unread, harg16.read_unread,
    View.ld_unit_zero (S := S1024x1024) hz2, View.ld_unit_zero (S := S1x1024) hz2, View.ld_unit_zero (S := S2048x1024) hz2]
  rfl

/-- The first tile leaves the bf16 copy of W_q in scratch 0. -/
theorem wq_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay6 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]

/-- The first tile leaves the batch's keys in scratch 1. -/
theorem keys_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay7 x0 x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]

/-- The first tile leaves the batch's values in scratch 2. -/
theorem values_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay8 x0 x5 x6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]

/-- The first tile's weights block: the same function, of the scratch it has just written. -/
theorem weights_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = wTile i x0 x4 (k0_pay6 x3) (k0_pay7 x0 x1 x2) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]
  rfl

/-- The first tile's attended-values block. -/
theorem attended_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = aTile i x0 x4 (k0_pay6 x3) (k0_pay7 x0 x1 x2) (k0_pay8 x0 x5 x6) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]
  rfl

/-- The first tile's block of the first result. -/
theorem result_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S1x256x2048 .f32) (harg13 : arg13.IsWhole) (arg14 : Memref sig .tc .vmem S1024x1024 .bf16) (harg14 : arg14.IsWhole) (arg15 : Memref sig .tc .vmem S2048x1024 .bf16) (harg15 : arg15.IsWhole) (arg16 : Memref sig .tc .vmem S2048x1024 .bf16) (harg16 : arg16.IsWhole) (hc0 : cond0_0 i) (x0 : Vec F S1x2048x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = oTile i x0 x4 x7 x8 (k0_pay6 x3) (k0_pay7 x0 x1 x2) (k0_pay8 x0 x5 x6) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread,
    View.ld_unit_zero (S := S1024x1024) hz2, View.ld_unit_zero (S := S1x1024) hz2, View.ld_unit_zero (S := S2048x1024) hz2, View.ld_unit_zero (S := S1x2048x1024) hz3,
    View.readCov_unit_zero (S := S1024x1024) _ hz2, View.readCov_unit_zero (S := S2048x1024) _ hz2]
  rfl

end Cert.KernelIdeal.Pieces

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«106411_j83932250898666_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.Spec.lean ====
/- The attention block as functions of the argument arrays, entry by entry, on the extended reals.
   keys, queries, values: x·W + b. Scores: (Σ_d query[q,d]·keys[k,d])·(1/32). Weights: the row softmax of the scores
   (maximum, exponentials of the differences, their sum, the quotient). Attended values: Σ_k weight[q,k]·value[k,d].
   First result: x beside the layer normalisation of x + attended values. -/
import Idealize.ShloMosaic.PureOps.Ideal
import Idealize.ShloMosaic.Lib.ValueIdx

noncomputable section

namespace Cert.AttnSpec

open Idealize.ShloMosaic Idealize.ShloMosaic.ValueIdx

abbrev Sx : Shape := ⟨3, ![4, 2048, 1024]⟩
abbrev Sw : Shape := ⟨2, ![1024, 1024]⟩
abbrev Sb : Shape := ⟨1, ![1024]⟩
abbrev Sout : Shape := ⟨3, ![4, 2048, 2048]⟩

/-- `x·W + bias` at batch `b`, row `n`, column `k`. -/
def proj (X : Sx.Idx → EReal) (W : Sw.Idx → EReal) (bias : Sb.Idx → EReal) (b : Fin 4) (n : Fin 2048) (k : Fin 1024) : EReal :=
  (∑ d : Fin 1024, X (ix3 b n d) * W (ix2 d k)) + bias (ix1 k)

/-- The maximum of a row of 2048 scores, folded from the word of −∞. -/
def rowMax (s : Fin 2048 → EReal) : EReal :=
  (Finset.univ : Finset (Fin 2048)).fold max (Ideal.ofBits .f32 0xFF800000#32) s

/-- The exponential of a score's distance to its row's maximum. -/
def rowExp (s : Fin 2048 → EReal) (k : Fin 2048) : EReal := Ideal.exp (s k - rowMax s)

/-- The row softmax. -/
def softmax (s : Fin 2048 → EReal) (k : Fin 2048) : EReal := Ideal.div (rowExp s k) (∑ k' : Fin 2048, rowExp s k')

/-- The mean of a row of 1024 entries. -/
def rowMean (h : Fin 1024 → EReal) : EReal := Ideal.div (∑ d : Fin 1024, h d) (Ideal.ofBits .f32 0x44800000#32)

/-- The (biased) variance of a row. -/
def rowVar (h : Fin 1024 → EReal) : EReal :=
  Ideal.div (∑ d : Fin 1024, (h d - rowMean h) * (h d - rowMean h)) (Ideal.ofBits .f32 0x44800000#32)

/-- The layer normalisation of a row, scaled by `g` and shifted by `be`. -/
def layerNorm (h g be : Fin 1024 → EReal) (d : Fin 1024) : EReal :=
  (h d - rowMean h) * Ideal.rsqrt (rowVar h + Ideal.ofBits .f32 0x3727C5AC#32) * g d + be d

/-- The scaled score of query row `q` against key row `k`, from the projected queries and keys. -/
def score (Q K : Fin 4 → Fin 2048 → Fin 1024 → EReal) (b : Fin 4) (q k : Fin 2048) : EReal :=
  (∑ d : Fin 1024, Q b q d * K b k d) * (((1 : ℝ) / 32 : ℝ) : EReal)

section
variable (X : Sx.Idx → EReal) (Wk : Sw.Idx → EReal) (bk : Sb.Idx → EReal) (Wq : Sw.Idx → EReal) (bq : Sb.Idx → EReal)
  (Wv : Sw.Idx → EReal) (bv : Sb.Idx → EReal) (gamma beta : Sb.Idx → EReal)

/-- The attention weights. -/
def weight (b : Fin 4) (q k : Fin 2048) : EReal :=
  softmax (fun k' => score (proj X Wq bq) (proj X Wk bk) b q k') k

/-- The attended values. -/
def att (b : Fin 4) (q : Fin 2048) (d : Fin 1024) : EReal :=
  ∑ k : Fin 2048, weight X Wk bk Wq bq b q k * proj X Wv bv b k d

/-- The normalised residual row. -/
def normed (b : Fin 4) (q : Fin 2048) (d : Fin 1024) : EReal :=
  layerNorm (fun d' => X (ix3 b q d') + att X Wk bk Wq bq Wv bv b q d') (fun d' => gamma (ix1 d')) (fun d' => beta (ix1 d')) d

/-- The weights as an array. -/
def weightArr : Sout.Idx → EReal := fun i => weight X Wk bk Wq bq (i 0) (i 1) (i 2)

/-- The attended values as an array. -/
def attArr : Sx.Idx → EReal := fun i => att X Wk bk Wq bq Wv bv (i 0) (i 1) (i 2)

/-- The first result: columns below 1024 are x, columns from 1024 on the normalised residual. -/
def outArr : Sout.Idx → EReal := fun i =>
  if h : (i 2).val < 1024 then X (ix3 (i 0) (i 1) ⟨(i 2).val, h⟩)
  else normed X Wk bk Wq bq Wv bv gamma beta (i 0) (i 1) ⟨(i 2).val - 1024, by have h2 : (i 2).val < 2048 := (i 2).isLt; omega⟩

/-- The first result in a column below 1024. -/
theorem outArr_left (b : Fin 4) (q : Fin 2048) (j : Fin 1024) :
    outArr X Wk bk Wq bq Wv bv gamma beta (ix3 b q (⟨j.val, by have := j.isLt; omega⟩ : Fin 2048)) = X (ix3 b q j) := by
  unfold outArr
  exact dif_pos j.isLt

/-- The first result in a column from 1024 on. -/
theorem outArr_right (b : Fin 4) (q : Fin 2048) (j : Fin 1024) :
    outArr X Wk bk Wq bq Wv bv gamma beta (ix3 b q (⟨1024 + j.val, by have := j.isLt; omega⟩ : Fin 2048))
      = normed X Wk bk Wq bq Wv bv gamma beta b q j := by
  unfold outArr
  refine (dif_neg (by show ¬(1024 + j.val < 1024); omega)).trans ?_
  exact congrArg (normed X Wk bk Wq bq Wv bv gamma beta b q) (Fin.ext (by show 1024 + j.val - 1024 = j.val; omega))

end

end Cert.AttnSpec

end
-- ==== Proof.Consts.lean ====
/- The three float literals whose values the argument uses: the kernel's query scale 0.03125 = 1/32, the reference's
   1024.0 under its square root, and that the square root of 1024 is 32. -/
import Idealize.ShloMosaic.PureOps.Ideal

noncomputable section

namespace Cert.AttnConsts

open Idealize.ShloMosaic

/-- The kernel's literal 0.03125 denotes the real 1/32. -/
theorem ofBits_inv32 : Ideal.ofBits .f32 0x3D000000#32 = (((1 : ℝ) / 32 : ℝ) : EReal) := by
  simp [Ideal.ofBits, Ideal.ieee, -EReal.coe_mul]; norm_num

/-- The literal 1024.0 denotes the real 1024. -/
theorem ofBits_1024 : Ideal.ofBits .f32 0x44800000#32 = ((1024 : ℝ) : EReal) := by
  simp [Ideal.ofBits, Ideal.ieee, -EReal.coe_mul]; norm_num

/-- The exact square root of 1024 is 32. -/
theorem sqrt_1024 : Ideal.sqrt ((1024 : ℝ) : EReal) = ((32 : ℝ) : EReal) := by
  have h : Real.sqrt 1024 = 32 := by
    rw [show (1024 : ℝ) = 32 ^ 2 by norm_num]
    exact Real.sqrt_sq (by norm_num)
  show (if (1024 : ℝ) < 0 then (⊥ : EReal) else ((Real.sqrt 1024 : ℝ) : EReal)) = _
  rw [if_neg (by norm_num), h]

/-- So dividing by the reference's `sqrt 1024.0` is multiplying by the kernel's scale. -/
theorem div_sqrt_1024 (x : EReal) :
    Ideal.div x (Ideal.sqrt (Ideal.ofBits .f32 0x44800000#32)) = x * (((1 : ℝ) / 32 : ℝ) : EReal) := by
  rw [ofBits_1024, sqrt_1024, Ideal.div_coe (by norm_num : (32 : ℝ) ≠ 0)]

end Cert.AttnConsts

end
-- ==== Proof.ScaleLaw.lean ====
/- A non-negative real factor moves across a finite sum of extended reals: the law that joins scores computed from
   pre-scaled queries with scores divided after the product. -/
import Mathlib.Data.EReal.Basic
import Mathlib.Data.EReal.Operations
import Mathlib.Data.EReal.Inv
import Mathlib.Algebra.BigOperators.Group.Finset.Basic

namespace Cert.AttnLaws

open Finset

/-- For a real `c ≥ 0`, `(∑ i, f i) * c = ∑ i, f i * c` on the extended reals, with no finiteness assumption:
    multiplication by a non-negative real keeps the order of the two infinities, so it commutes with the
    (⊥-absorbing) addition. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Scaling the left factor of every product by a real `c ≥ 0` scales the sum of products:
    `∑ i, (a i * c) * b i = (∑ i, a i * b i) * c`. -/
theorem sum_scaled_mul {ι : Type*} (s : Finset ι) (a b : ι → EReal) {c : ℝ} (hc : 0 ≤ c) :
    ∑ i ∈ s, (a i * (c : EReal)) * b i = (∑ i ∈ s, a i * b i) * (c : EReal) := by
  rw [sum_mul_coe_of_nonneg s _ hc]
  exact Finset.sum_congr rfl fun i _ => mul_right_comm (a i) (c : EReal) (b i)

end Cert.AttnLaws
-- ==== Proof.KernelEntries.lean ====
/- The arithmetic of one grid point read at an entry, at exact arithmetic (F := Ideal): the four matrix products as
   sums over the contracted axis, the softmax rows and the layer-normalised rows as the specification's row functions,
   and from these the three output blocks of a point whose loaded blocks and scratch contents are known entry by entry. -/
import proofs.«106411_j83932250898666_2_alg».proof.Proof.KernelPieces
import proofs.«106411_j83932250898666_2_alg».proof.Proof.LibMatmulIdx
import proofs.«106411_j83932250898666_2_alg».proof.Proof.LibMatmulNT
import proofs.«106411_j83932250898666_2_alg».proof.Proof.LibColumnOps
import proofs.«106411_j83932250898666_2_alg».proof.Proof.LibRowLayouts
import proofs.«106411_j83932250898666_2_alg».proof.Proof.Spec
import proofs.«106411_j83932250898666_2_alg».proof.Proof.Consts
import proofs.«106411_j83932250898666_2_alg».proof.Proof.ScaleLaw
import Idealize.ShloMosaic.Lib.ValueIdx
import Idealize.ShloMosaic.Lib.Pipeline.Value
import Idealize.ShloMosaic.PureOps.Ideal.Laws

set_option maxRecDepth 16384

noncomputable section

namespace Cert.KernelIdeal.Entries

open Cert.KernelIdeal Cert.KernelIdeal.Gen Cert.KernelIdeal.Pieces Cert.AttnSpec
open Idealize.ShloMosaic Idealize.ShloMosaic.ValueIdx

/-! ## The four products -/

/-- The batch's 2048 rows times a weight matrix (keys, values). -/
theorem mm_batch {φ₁ φ₂ : FTy} (l : FVec Ideal S2048x1024 φ₁) (r : FVec Ideal S1024x1024 φ₂) (p : Fin 2048) (q : Fin 1024) :
    FloatOps.matmul (F := Ideal) dot_S2048x1024_S1024x1024_S2048x1024_1_0_0_1_n_n none l r (constant S2048x1024 .f32 0x00000000#32) (ix2 p q)
      = ∑ d : Fin 1024, l (ix2 p d) * r (ix2 d q) :=
  LibMatmulIdx.matmul2_apply (M := 2048) (K := 1024) (N := 1024) dot_S2048x1024_S1024x1024_S2048x1024_1_0_0_1_n_n rfl rfl
    (fun j k => by unfold DotDims.lhsIdx; rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]; rfl) (fun j k => dot_S2048x1024_S1024x1024_S2048x1024_1_0_0_1_n_n.lhsIdx_val_of_single rfl j k)
    (fun j k => dot_S2048x1024_S1024x1024_S2048x1024_1_0_0_1_n_n.rhsIdx_val_of_single rfl j k) (fun j k => by unfold DotDims.rhsIdx; rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]; rfl) none l r (ix2 p q)

/-- A tile's 256 rows times W_q. -/
theorem mm_tile {φ₁ φ₂ : FTy} (l : FVec Ideal S256x1024 φ₁) (r : FVec Ideal S1024x1024 φ₂) (p : Fin 256) (q : Fin 1024) :
    FloatOps.matmul (F := Ideal) dot_S256x1024_S1024x1024_S256x1024_1_0_0_1_n_n none l r (constant S256x1024 .f32 0x00000000#32) (ix2 p q)
      = ∑ d : Fin 1024, l (ix2 p d) * r (ix2 d q) :=
  LibMatmulIdx.matmul2_apply (M := 256) (K := 1024) (N := 1024) dot_S256x1024_S1024x1024_S256x1024_1_0_0_1_n_n rfl rfl
    (fun j k => by unfold DotDims.lhsIdx; rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]; rfl) (fun j k => dot_S256x1024_S1024x1024_S256x1024_1_0_0_1_n_n.lhsIdx_val_of_single rfl j k)
    (fun j k => dot_S256x1024_S1024x1024_S256x1024_1_0_0_1_n_n.rhsIdx_val_of_single rfl j k) (fun j k => by unfold DotDims.rhsIdx; rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]; rfl) none l r (ix2 p q)

/-- A tile's weights times the batch's values. -/
theorem mm_att {φ₁ φ₂ : FTy} (l : FVec Ideal S256x2048 φ₁) (r : FVec Ideal S2048x1024 φ₂) (p : Fin 256) (q : Fin 1024) :
    FloatOps.matmul (F := Ideal) dot_S256x2048_S2048x1024_S256x1024_1_0_0_1_n_n none l r (constant S256x1024 .f32 0x00000000#32) (ix2 p q)
      = ∑ d : Fin 2048, l (ix2 p d) * r (ix2 d q) :=
  LibMatmulIdx.matmul2_apply (M := 256) (K := 2048) (N := 1024) dot_S256x2048_S2048x1024_S256x1024_1_0_0_1_n_n rfl rfl
    (fun j k => by unfold DotDims.lhsIdx; rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]; rfl) (fun j k => dot_S256x2048_S2048x1024_S256x1024_1_0_0_1_n_n.lhsIdx_val_of_single rfl j k)
    (fun j k => dot_S256x2048_S2048x1024_S256x1024_1_0_0_1_n_n.rhsIdx_val_of_single rfl j k) (fun j k => by unfold DotDims.rhsIdx; rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]; rfl) none l r (ix2 p q)

/-- A tile's scaled queries against the batch's keys, both contracted along their 1024 columns. -/
theorem mm_scores {φ₁ φ₂ : FTy} (l : FVec Ideal S256x1024 φ₁) (r : FVec Ideal S2048x1024 φ₂) (p : Fin 256) (q : Fin 2048) :
    FloatOps.matmul (F := Ideal) dot_S256x1024_S2048x1024_S256x2048_1_1_0_0_n_n none l r (constant S256x2048 .f32 0x00000000#32) (ix2 p q)
      = ∑ d : Fin 1024, l (ix2 p d) * r (ix2 q d) :=
  LibMatmulNT.matmul_nt_zero_apply (M := 256) (K := 1024) (N := 2048) dot_S256x1024_S2048x1024_S256x2048_1_1_0_0_n_n rfl rfl
    (fun j k => by unfold DotDims.lhsIdx; rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]; rfl) (fun j k => dot_S256x1024_S2048x1024_S256x2048_1_1_0_0_n_n.lhsIdx_val_of_single rfl j k)
    (fun j k => by unfold DotDims.rhsIdx; rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]; rfl) (fun j k => dot_S256x1024_S2048x1024_S256x2048_1_1_0_0_n_n.rhsIdx_val_of_single rfl j k) none l r (ix2 p q)

/-! ## The scratch contents of a batch's first tile -/

/-- x·W + b, as the first tile computes the batch's keys (and, with the other weight and bias, its values). -/
theorem keys_entry (x0 : Vec Ideal S1x2048x1024 .f32) (w : Vec Ideal S1024x1024 .f32) (bias : Vec Ideal S1x1024 .f32)
    (n : Fin 2048) (k : Fin 1024) :
    k0_pay7 (F := Ideal) x0 w bias (ix2 n k)
      = (∑ d : Fin 1024, x0 (ix3 (0 : Fin 1) n d) * w (ix2 d k)) + bias (ix2 (0 : Fin 1) k) := by
  unfold k0_pay7 k0_pay5
  simp only [shapeCast_self]
  show FloatOps.matmul (F := Ideal) dot_S2048x1024_S1024x1024_S2048x1024_1_0_0_1_n_n none (shapeCast S2048x1024 x0 shapeCasts_S1x2048x1024_S2048x1024) w
      (constant S2048x1024 .f32 0x00000000#32) (ix2 n k) + broadcastTo S2048x1024 bias broadcasts_S1x1024_S2048x1024 (ix2 n k) = _
  rw [mm_batch, LibRowLayouts.broadcastTo_row_apply]
  refine congrArg (· + _) (Finset.sum_congr rfl fun d _ => ?_)
  rw [LibRowLayouts.shapeCast_drop_unit_apply]

theorem values_entry (x0 : Vec Ideal S1x2048x1024 .f32) (w : Vec Ideal S1024x1024 .f32) (bias : Vec Ideal S1x1024 .f32)
    (n : Fin 2048) (k : Fin 1024) :
    k0_pay8 (F := Ideal) x0 w bias (ix2 n k)
      = (∑ d : Fin 1024, x0 (ix3 (0 : Fin 1) n d) * w (ix2 d k)) + bias (ix2 (0 : Fin 1) k) := by
  unfold k0_pay8 k0_pay5
  simp only [shapeCast_self]
  show FloatOps.matmul (F := Ideal) dot_S2048x1024_S1024x1024_S2048x1024_1_0_0_1_n_n none (shapeCast S2048x1024 x0 shapeCasts_S1x2048x1024_S2048x1024) w
      (constant S2048x1024 .f32 0x00000000#32) (ix2 n k) + broadcastTo S2048x1024 bias broadcasts_S1x1024_S2048x1024 (ix2 n k) = _
  rw [mm_batch, LibRowLayouts.broadcastTo_row_apply]
  refine congrArg (· + _) (Finset.sum_congr rfl fun d _ => ?_)
  rw [LibRowLayouts.shapeCast_drop_unit_apply]

/-- The bf16 copy of W_q is W_q. -/
theorem wq_entry (w : Vec Ideal S1024x1024 .f32) : k0_pay6 (F := Ideal) w = w := by
  unfold k0_pay6
  simp only [shapeCast_self]
  rfl

/-! ## The softmax rows and the normalised rows, as the kernel spells them -/

/-- The kernel's softmax of a 256 × 2048 block of scores (row maximum, exponentials, row sums, quotient), at an entry. -/
theorem softmax_block (sc : FVec Ideal S256x2048 .f32) (r : Fin 256) (k : Fin 2048) :
    divf (exp (subf sc (broadcastTo S256x2048 (shapeCast S256x1
        (multiReduction .maximumf [1] S256 sc 0xFF800000#32 reduces_S256x2048_S256 (.inl rfl) rfl) shapeCasts_S256_S256x1) broadcasts_S256x1_S256x2048)))
      (broadcastTo S256x2048 (shapeCast S256x1
        (multiReduction .add [1] S256 (exp (subf sc (broadcastTo S256x2048 (shapeCast S256x1
          (multiReduction .maximumf [1] S256 sc 0xFF800000#32 reduces_S256x2048_S256 (.inl rfl) rfl) shapeCasts_S256_S256x1) broadcasts_S256x1_S256x2048)))
          0x00000000#32 reduces_S256x2048_S256 (.inl rfl) rfl) shapeCasts_S256_S256x1) broadcasts_S256x1_S256x2048) (ix2 r k)
      = softmax (fun l => sc (ix2 r l)) k := by
  have hE : ∀ l : Fin 2048, exp (subf sc (broadcastTo S256x2048 (shapeCast S256x1
        (multiReduction .maximumf [1] S256 sc 0xFF800000#32 reduces_S256x2048_S256 (.inl rfl) rfl) shapeCasts_S256_S256x1) broadcasts_S256x1_S256x2048)) (ix2 r l)
      = rowExp (fun l => sc (ix2 r l)) l := fun l => by
    show Ideal.exp (sc (ix2 r l) - broadcastTo S256x2048 (shapeCast S256x1
        (multiReduction (F := Ideal) .maximumf [1] S256 sc 0xFF800000#32 reduces_S256x2048_S256 (.inl rfl) rfl) shapeCasts_S256_S256x1) broadcasts_S256x1_S256x2048 (ix2 r l)) = _
    refine congrArg (fun z => Ideal.exp (sc (ix2 r l) - z)) ?_
    refine (LibColumnOps.broadcastTo_col_apply _ _ r l).trans ?_
    refine (LibKeepdims.shapeCast_col_apply _ _ r (0 : Fin 1)).trans ?_
    exact LibColumnOps.max_axis1_apply sc 0xFF800000#32 reduces_S256x2048_S256 (.inl rfl) rfl r
  show Ideal.div _ _ = Ideal.div _ _
  refine congrArg₂ Ideal.div (hE k) ?_
  refine (LibColumnOps.rowsum_bcast_apply _ reduces_S256x2048_S256 shapeCasts_S256_S256x1 broadcasts_S256x1_S256x2048 (.inl rfl) rfl r k).trans ?_
  exact Finset.sum_congr rfl fun l _ => hE l

/-- The kernel's layer normalisation of a 256 × 1024 block (row means, centred squares, their means plus ε, the inverse
    square root, the scale and the shift), at an entry. -/
theorem layernorm_block (h : FVec Ideal S256x1024 .f32) (g be : FVec Ideal S1x1024 .f32) (r : Fin 256) (d : Fin 1024) :
    addf (mulf (mulf (subf h (broadcastTo S256x1024 (divf (shapeCast S256x1 (multiReduction .add [1] S256 h 0x00000000#32 reduces_S256x1024_S256 (.inl rfl) rfl) shapeCasts_S256_S256x1)
          (broadcast S256x1 (Scalar.ofBits .f32 0x44800000#32))) broadcasts_S256x1_S256x1024))
        (broadcastTo S256x1024 (rsqrt (addf (divf (shapeCast S256x1 (multiReduction .add [1] S256
            (mulf (subf h (broadcastTo S256x1024 (divf (shapeCast S256x1 (multiReduction .add [1] S256 h 0x00000000#32 reduces_S256x1024_S256 (.inl rfl) rfl) shapeCasts_S256_S256x1)
              (broadcast S256x1 (Scalar.ofBits .f32 0x44800000#32))) broadcasts_S256x1_S256x1024))
              (subf h (broadcastTo S256x1024 (divf (shapeCast S256x1 (multiReduction .add [1] S256 h 0x00000000#32 reduces_S256x1024_S256 (.inl rfl) rfl) shapeCasts_S256_S256x1)
              (broadcast S256x1 (Scalar.ofBits .f32 0x44800000#32))) broadcasts_S256x1_S256x1024)))
            0x00000000#32 reduces_S256x1024_S256 (.inl rfl) rfl) shapeCasts_S256_S256x1) (broadcast S256x1 (Scalar.ofBits .f32 0x44800000#32)))
          (broadcast S256x1 (Scalar.ofBits .f32 0x3727C5AC#32)))) broadcasts_S256x1_S256x1024))
        (broadcastTo S256x1024 g broadcasts_S1x1024_S256x1024))
      (broadcastTo S256x1024 be broadcasts_S1x1024_S256x1024) (ix2 r d)
      = layerNorm (fun d' => h (ix2 r d')) (fun d' => g (ix2 (0 : Fin 1) d')) (fun d' => be (ix2 (0 : Fin 1) d')) d := by
  -- the row mean, as a column entry
  have hmean : ∀ z : Fin 1, divf (shapeCast S256x1 (multiReduction .add [1] S256 h 0x00000000#32 reduces_S256x1024_S256 (.inl rfl) rfl) shapeCasts_S256_S256x1)
      (broadcast S256x1 (Scalar.ofBits .f32 0x44800000#32)) (ix2 r z) = rowMean (fun d' => h (ix2 r d')) := fun z => by
    show Ideal.div (shapeCast S256x1 (multiReduction (F := Ideal) .add [1] S256 h 0x00000000#32 reduces_S256x1024_S256 (.inl rfl) rfl) shapeCasts_S256_S256x1 (ix2 r z))
      (Ideal.ofBits .f32 0x44800000#32) = Ideal.div _ _
    refine congrArg (fun s => Ideal.div s (Ideal.ofBits .f32 0x44800000#32)) ?_
    refine (LibKeepdims.shapeCast_col_apply _ _ r z).trans ?_
    exact LibKeepdims.sum_axis1_apply h 0x00000000#32 reduces_S256x1024_S256 (.inl rfl) rfl r
  -- a centred entry
  have hdev : ∀ d' : Fin 1024, subf h (broadcastTo S256x1024 (divf (shapeCast S256x1 (multiReduction .add [1] S256 h 0x00000000#32 reduces_S256x1024_S256 (.inl rfl) rfl) shapeCasts_S256_S256x1)
      (broadcast S256x1 (Scalar.ofBits .f32 0x44800000#32))) broadcasts_S256x1_S256x1024) (ix2 r d')
      = h (ix2 r d') - rowMean (fun d' => h (ix2 r d')) := fun d' => by
    show h (ix2 r d') - broadcastTo S256x1024 _ broadcasts_S256x1_S256x1024 (ix2 r d') = _
    refine congrArg (fun z => h (ix2 r d') - z) ?_
    exact (LibColumnOps.broadcastTo_col_apply _ _ r d').trans (hmean 0)
  show ((_ - _) * _) * _ + _ = _
  unfold layerNorm
  refine congrArg₂ (· + ·) (congrArg₂ (· * ·) (congrArg₂ (· * ·) (hdev d) ?_) ?_) ?_
  · -- the inverse square root of the variance plus ε, as a broadcast column entry
    refine (LibColumnOps.broadcastTo_col_apply _ _ r d).trans ?_
    show Ideal.rsqrt (Ideal.div (shapeCast S256x1 (multiReduction (F := Ideal) .add [1] S256 _ 0x00000000#32 reduces_S256x1024_S256 (.inl rfl) rfl) shapeCasts_S256_S256x1 (ix2 r (0 : Fin 1)))
      (Ideal.ofBits .f32 0x44800000#32) + Ideal.ofBits .f32 0x3727C5AC#32) = _
    unfold rowVar
    refine congrArg (fun s => Ideal.rsqrt (Ideal.div s (Ideal.ofBits .f32 0x44800000#32) + Ideal.ofBits .f32 0x3727C5AC#32)) ?_
    refine (LibKeepdims.shapeCast_col_apply _ _ r (0 : Fin 1)).trans ?_
    refine (LibKeepdims.sum_axis1_apply _ 0x00000000#32 reduces_S256x1024_S256 (.inl rfl) rfl r).trans ?_
    refine Finset.sum_congr rfl fun d' _ => ?_
    exact congrArg₂ (· * ·) (hdev d') (hdev d')
  · exact LibRowLayouts.broadcastTo_row_apply g _ r d
  · exact LibRowLayouts.broadcastTo_row_apply be _ r d

/-! ## A point's three output blocks, from what its loaded blocks and scratch arrays hold entry by entry -/

section Tiles

variable (X : Sx.Idx → EReal) (Wk : Sw.Idx → EReal) (bk : Sb.Idx → EReal) (Wq : Sw.Idx → EReal) (bq : Sb.Idx → EReal)
  (Wv : Sw.Idx → EReal) (bv : Sb.Idx → EReal) (gamma beta : Sb.Idx → EReal)

/-- The softmax weights of block row `r`, which is row `q` of batch `b`: the scratch holds W_q and the batch's keys, and the
    factor 1/32 on the queries moves across the sum over the 1024 columns. -/
theorem weights_entry (xt : Vec Ideal S1x256x1024 .f32) (s0 : Vec Ideal S1024x1024 .bf16) (bqv : Vec Ideal S1x1024 .f32)
    (s1 : Vec Ideal S2048x1024 .bf16) (b : Fin 4) (q : Fin 2048) (r : Fin 256)
    (hx : ∀ e, xt (ix3 (0 : Fin 1) r e) = X (ix3 b q e))
    (hbq : ∀ d, bqv (ix2 (0 : Fin 1) d) = bq (ix1 d))
    (hs0 : ∀ e d, s0 (ix2 e d) = Wq (ix2 e d))
    (hs1 : ∀ l d, s1 (ix2 l d) = proj X Wk bk b l d) (k : Fin 2048) :
    k0_pay10 (F := Ideal) xt s0 bqv s1 (ix2 r k) = weight X Wk bk Wq bq b q k := by
  unfold k0_pay10 k0_pay9
  simp only [shapeCast_self]
  refine (softmax_block _ r k).trans ?_
  unfold weight
  refine congrArg (fun s => softmax s k) (funext fun l => ?_)
  refine (mm_scores (φ₁ := .bf16) (φ₂ := .bf16) _ s1 r l).trans ?_
  unfold score
  refine Eq.trans (Finset.sum_congr rfl fun d _ => ?_)
    (Cert.AttnLaws.sum_scaled_mul Finset.univ (fun d => proj X Wq bq b q d) (fun d => proj X Wk bk b l d) (c := (1 : ℝ) / 32) (by norm_num))
  refine congrArg₂ (· * ·) ?_ (hs1 l d)
  show (FloatOps.matmul (F := Ideal) dot_S256x1024_S1024x1024_S256x1024_1_0_0_1_n_n none (shapeCast S256x1024 xt shapeCasts_S1x256x1024_S256x1024) s0
      (constant S256x1024 .f32 0x00000000#32) (ix2 r d) + broadcastTo S256x1024 bqv broadcasts_S1x1024_S256x1024 (ix2 r d))
      * Ideal.ofBits .f32 0x3D000000#32 = _
  refine congrArg₂ (· * ·) ?_ Cert.AttnConsts.ofBits_inv32
  unfold proj
  exact congrArg₂ (· + ·)
    ((mm_tile (φ₁ := .bf16) (φ₂ := .bf16) _ s0 r d).trans (Finset.sum_congr rfl fun e _ =>
      congrArg₂ (· * ·) ((LibRowLayouts.shapeCast_drop_unit_apply xt _ r e).trans (hx e)) (hs0 e d)))
    ((LibRowLayouts.broadcastTo_row_apply bqv _ r d).trans (hbq d))

/-- The attended values of that row: the weights against the batch's values in the scratch. -/
theorem attended_entry (xt : Vec Ideal S1x256x1024 .f32) (s0 : Vec Ideal S1024x1024 .bf16) (bqv : Vec Ideal S1x1024 .f32)
    (s1 s2 : Vec Ideal S2048x1024 .bf16) (b : Fin 4) (q : Fin 2048) (r : Fin 256)
    (hx : ∀ e, xt (ix3 (0 : Fin 1) r e) = X (ix3 b q e))
    (hbq : ∀ d, bqv (ix2 (0 : Fin 1) d) = bq (ix1 d))
    (hs0 : ∀ e d, s0 (ix2 e d) = Wq (ix2 e d))
    (hs1 : ∀ l d, s1 (ix2 l d) = proj X Wk bk b l d)
    (hs2 : ∀ l d, s2 (ix2 l d) = proj X Wv bv b l d) (d : Fin 1024) :
    k0_pay1 (F := Ideal) s2 (k0_pay12 xt s0 bqv s1) (constant S256x1024 .f32 0x00000000#32) (ix2 r d)
      = att X Wk bk Wq bq Wv bv b q d := by
  unfold k0_pay1 k0_pay12
  refine (mm_att (φ₁ := .bf16) (φ₂ := .bf16) _ s2 r d).trans ?_
  unfold att
  exact Finset.sum_congr rfl fun k _ =>
    congrArg₂ (· * ·) (weights_entry X Wk bk Wq bq xt s0 bqv s1 b q r hx hbq hs0 hs1 k) (hs2 k d)

/-- The normalised residual of that row. -/
theorem normed_entry (xt : Vec Ideal S1x256x1024 .f32) (s0 : Vec Ideal S1024x1024 .bf16) (bqv g be : Vec Ideal S1x1024 .f32)
    (s1 s2 : Vec Ideal S2048x1024 .bf16) (b : Fin 4) (q : Fin 2048) (r : Fin 256)
    (hx : ∀ e, xt (ix3 (0 : Fin 1) r e) = X (ix3 b q e))
    (hbq : ∀ d, bqv (ix2 (0 : Fin 1) d) = bq (ix1 d))
    (hg : ∀ d, g (ix2 (0 : Fin 1) d) = gamma (ix1 d))
    (hbe : ∀ d, be (ix2 (0 : Fin 1) d) = beta (ix1 d))
    (hs0 : ∀ e d, s0 (ix2 e d) = Wq (ix2 e d))
    (hs1 : ∀ l d, s1 (ix2 l d) = proj X Wk bk b l d)
    (hs2 : ∀ l d, s2 (ix2 l d) = proj X Wv bv b l d) (d : Fin 1024) :
    k0_pay4 (F := Ideal) (k0_pay9 xt) s2 (k0_pay12 xt s0 bqv s1) (constant S256x1024 .f32 0x00000000#32) g be (ix3 (0 : Fin 1) r d)
      = normed X Wk bk Wq bq Wv bv gamma beta b q d := by
  unfold k0_pay4
  simp only [shapeCast_self]
  refine (LibRowLayouts.shapeCast_add_unit_apply _ _ (0 : Fin 1) r d).trans ?_
  refine (layernorm_block _ g be r d).trans ?_
  unfold normed
  have e1 : (fun d' => addf (k0_pay9 (F := Ideal) xt) (k0_pay1 (F := Ideal) s2 (k0_pay12 xt s0 bqv s1) (constant S256x1024 .f32 0x00000000#32)) (ix2 r d'))
      = fun d' => X (ix3 b q d') + att X Wk bk Wq bq Wv bv b q d' := funext fun d' =>
    congrArg₂ (· + ·) ((LibRowLayouts.shapeCast_drop_unit_apply xt _ r d').trans (hx d'))
      (attended_entry X Wk bk Wq bq Wv bv xt s0 bqv s1 s2 b q r hx hbq hs0 hs1 hs2 d')
  have e2 : (fun d' => g (ix2 (0 : Fin 1) d')) = fun d' => gamma (ix1 d') := funext hg
  have e3 : (fun d' => be (ix2 (0 : Fin 1) d')) = fun d' => beta (ix1 d') := funext hbe
  exact (congrArg (fun hrow => layerNorm hrow _ _ d) e1).trans
    ((congrArg (fun gg => layerNorm _ gg _ d) e2).trans (congrArg (fun bb => layerNorm _ _ bb d) e3))

/-- The weights block of a point whose 256 rows are rows `q r` of batch `b`. -/
theorem wTile_entry (i : grid0.Coords) (x0 : Vec Ideal S1x2048x1024 .f32) (bqv : Vec Ideal S1x1024 .f32)
    (s0 : Vec Ideal S1024x1024 .bf16) (s1 : Vec Ideal S2048x1024 .bf16) (b : Fin 4) (q : Fin 256 → Fin 2048)
    (hx : ∀ r e, xrows i x0 (ix3 (0 : Fin 1) r e) = X (ix3 b (q r) e))
    (hbq : ∀ d, bqv (ix2 (0 : Fin 1) d) = bq (ix1 d))
    (hs0 : ∀ e d, s0 (ix2 e d) = Wq (ix2 e d))
    (hs1 : ∀ l d, s1 (ix2 l d) = proj X Wk bk b l d) (r : Fin 256) (k : Fin 2048) :
    wTile i x0 bqv s0 s1 (ix3 (0 : Fin 1) r k) = weight X Wk bk Wq bq b (q r) k := by
  unfold wTile k0_pay11
  exact (LibRowLayouts.shapeCast_add_unit_apply _ _ (0 : Fin 1) r k).trans
    (weights_entry X Wk bk Wq bq (xrows i x0) s0 bqv s1 b (q r) r (hx r) hbq hs0 hs1 k)

/-- Its attended-values block. -/
theorem aTile_entry (i : grid0.Coords) (x0 : Vec Ideal S1x2048x1024 .f32) (bqv : Vec Ideal S1x1024 .f32)
    (s0 : Vec Ideal S1024x1024 .bf16) (s1 s2 : Vec Ideal S2048x1024 .bf16) (b : Fin 4) (q : Fin 256 → Fin 2048)
    (hx : ∀ r e, xrows i x0 (ix3 (0 : Fin 1) r e) = X (ix3 b (q r) e))
    (hbq : ∀ d, bqv (ix2 (0 : Fin 1) d) = bq (ix1 d))
    (hs0 : ∀ e d, s0 (ix2 e d) = Wq (ix2 e d))
    (hs1 : ∀ l d, s1 (ix2 l d) = proj X Wk bk b l d)
    (hs2 : ∀ l d, s2 (ix2 l d) = proj X Wv bv b l d) (r : Fin 256) (d : Fin 1024) :
    aTile i x0 bqv s0 s1 s2 (ix3 (0 : Fin 1) r d) = att X Wk bk Wq bq Wv bv b (q r) d := by
  unfold aTile k0_pay2
  exact (LibRowLayouts.shapeCast_add_unit_apply _ _ (0 : Fin 1) r d).trans
    (attended_entry X Wk bk Wq bq Wv bv (xrows i x0) s0 bqv s1 s2 b (q r) r (hx r) hbq hs0 hs1 hs2 d)

/-- Its block of the first result, in the columns below 1024: the rows of x (the second store does not reach them). -/
theorem oTile_entry_left (i : grid0.Coords) (x0 : Vec Ideal S1x2048x1024 .f32) (bqv g be : Vec Ideal S1x1024 .f32)
    (s0 : Vec Ideal S1024x1024 .bf16) (s1 s2 : Vec Ideal S2048x1024 .bf16) (b : Fin 4) (q : Fin 256 → Fin 2048)
    (hx : ∀ r e, xrows i x0 (ix3 (0 : Fin 1) r e) = X (ix3 b (q r) e)) (r : Fin 256) (j : Fin 1024) :
    oTile i x0 bqv g be s0 s1 s2 (ix3 (0 : Fin 1) r (⟨j.val, by have := j.isLt; omega⟩ : Fin 2048)) = X (ix3 b (q r) j) := by
  unfold oTile
  rw [View.canon_cons_of_not_mem _ _ (by
    rw [Rect.mem_set_unit]
    intro hm
    have h2 := (hm (2 : Fin 3)).1
    have : (1024 : ℕ) ≤ j.val := h2
    have := j.isLt
    omega)]
  have he : (ix3 (0 : Fin 1) r (⟨j.val, by have := j.isLt; omega⟩ : Fin 2048) : S1x256x2048.Idx)
      = (Rect.unit (s := S1x256x2048) ![0, 0, 0] S1x256x1024.size inb_S1x256x2048_S1x256x1024_0_0_0).emb (ix3 (0 : Fin 1) r j) :=
    funext fun a => Fin.ext (by
      match a with
      | ⟨0, _⟩ => show (0 : ℕ) = 0 + 1 * 0; omega
      | ⟨1, _⟩ => show r.val = 0 + 1 * r.val; omega
      | ⟨2, _⟩ => show j.val = 0 + 1 * j.val; omega)
  rw [he, View.canon_cons_emb]
  unfold k0_pay3 k0_pay9
  refine (LibRowLayouts.shapeCast_add_unit_apply _ _ (0 : Fin 1) r j).trans ?_
  exact (LibRowLayouts.shapeCast_drop_unit_apply _ _ r j).trans (hx r j)

/-- Its block of the first result, in the columns from 1024 on: the normalised residual (the second store). -/
theorem oTile_entry_right (i : grid0.Coords) (x0 : Vec Ideal S1x2048x1024 .f32) (bqv g be : Vec Ideal S1x1024 .f32)
    (s0 : Vec Ideal S1024x1024 .bf16) (s1 s2 : Vec Ideal S2048x1024 .bf16) (b : Fin 4) (q : Fin 256 → Fin 2048)
    (hx : ∀ r e, xrows i x0 (ix3 (0 : Fin 1) r e) = X (ix3 b (q r) e))
    (hbq : ∀ d, bqv (ix2 (0 : Fin 1) d) = bq (ix1 d))
    (hg : ∀ d, g (ix2 (0 : Fin 1) d) = gamma (ix1 d))
    (hbe : ∀ d, be (ix2 (0 : Fin 1) d) = beta (ix1 d))
    (hs0 : ∀ e d, s0 (ix2 e d) = Wq (ix2 e d))
    (hs1 : ∀ l d, s1 (ix2 l d) = proj X Wk bk b l d)
    (hs2 : ∀ l d, s2 (ix2 l d) = proj X Wv bv b l d) (r : Fin 256) (j : Fin 1024) :
    oTile i x0 bqv g be s0 s1 s2 (ix3 (0 : Fin 1) r (⟨1024 + j.val, by have := j.isLt; omega⟩ : Fin 2048))
      = normed X Wk bk Wq bq Wv bv gamma beta b (q r) j := by
  unfold oTile
  have he : (ix3 (0 : Fin 1) r (⟨1024 + j.val, by have := j.isLt; omega⟩ : Fin 2048) : S1x256x2048.Idx)
      = (Rect.unit (s := S1x256x2048) ![0, 0, 1024] S1x256x1024.size inb_S1x256x2048_S1x256x1024_0_0_1024).emb (ix3 (0 : Fin 1) r j) :=
    funext fun a => Fin.ext (by
      match a with
      | ⟨0, _⟩ => show (0 : ℕ) = 0 + 1 * 0; omega
      | ⟨1, _⟩ => show r.val = 0 + 1 * r.val; omega
      | ⟨2, _⟩ => show 1024 + j.val = 1024 + 1 * j.val; omega)
  rw [he, View.canon_cons_emb]
  exact normed_entry X Wk bk Wq bq Wv bv gamma beta (xrows i x0) s0 bqv g be s1 s2 b (q r) r (hx r) hbq hg hbe hs0 hs1 hs2 j

end Tiles

end Cert.KernelIdeal.Entries

end
-- ==== Proof.KernelValue.lean ====
import proofs.«106411_j83932250898666_2_alg».proof.Proof.Gen.KernelIdeal.Frame
import Idealize.ShloMosaic.Lib.Pipeline.Value
import Idealize.ShloMosaic.Lib.Tactic
import proofs.«106411_j83932250898666_2_alg».proof.Proof.Gen.KernelIdeal.Value
import proofs.«106411_j83932250898666_2_alg».proof.Proof.KernelEntries
import Idealize.ShloMosaic.Lib.StableHlo.Run
set_option maxRecDepth 16384

noncomputable section

open Idealize.ShloMosaic Idealize.ShloMosaic.TcCoe Idealize.SL.Sem
open Idealize.ShloMosaic.Pipeline (Dat)

/-! The kernel's three result arrays at exact arithmetic. Grid point t = 8·b + i handles batch b = t / 8 and query rows
    256·i … 256·i + 255, i = t % 8. The scratch arrays hold, after every point of batch b, W_q and the batch's keys and
    values (written at i = 0, kept afterwards), so every point's three output blocks are the specification's entries of
    its rows, and the 32 blocks of each result tile the result array. -/

namespace Cert.KernelIdeal.AttnValue

open Cert.KernelIdeal Cert.KernelIdeal.Gen Cert.KernelIdeal.Pieces Cert.KernelIdeal.Entries Cert.AttnSpec
open Idealize.ShloMosaic.ValueIdx Idealize.ShloMosaic.StableHlo

variable (m : (ℓ : Loc nD τ sig) → Buf (Elt Ideal) ℓ) (ρ : Dev nD → PrngReg)

/-- The printed index maps and the row offset of a point's slice of x, decided over the 32 grid points: x's block is the
    batch's, the weights' and biases' blocks never move, each result's block is (batch, query tile, 0), and the slice
    starts at row 256·(t % 8). -/
theorem grid_facts : ∀ t : Fin cfg0.N,
    (win0_0.index t (0 : Fin 3) = t.val / 8 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (k0_off1 (grid0.coords t) (0 : Fin 3) = 0 ∧ k0_off1 (grid0.coords t) (1 : Fin 3) = 256 * (t.val % 8) ∧ k0_off1 (grid0.coords t) (2 : Fin 3) = 0) :=
  (by decide +kernel : ∀ t : Fin grid0.N, _)

theorem lt32 (t : Fin cfg0.N) : t.val < 32 := lt_of_lt_of_eq t.isLt N_0

/-- The batch of a grid point. -/
def batchOf (t : Fin cfg0.N) : Fin 4 := ⟨t.val / 8, by have := lt32 t; omega⟩

/-- The row of x that block row `r` of a grid point is. -/
def rowOf (t : Fin cfg0.N) (r : Fin 256) : Fin 2048 :=
  ⟨256 * (t.val % 8) + r.val, by have := r.isLt; omega⟩

/-! ## The loaded blocks, entry by entry -/

/-- A point's 256 rows of x. -/
theorem xrows_read (c : Dev nD) (t : Fin cfg0.N) (r : Fin 256) (e : Fin 1024) :
    xrows (grid0.coords t) (iblk m c 0 t) (ix3 (0 : Fin 1) r e)
      = m ((c : Thread nD τ).loc main_arg0) (ix3 (batchOf t) (rowOf t r) e) := by
  obtain ⟨e0, e1, e2⟩ := (grid_facts t).1
  obtain ⟨o0, o1, o2⟩ := (grid_facts t).2.2.2.2.2.2.2.2.2.2.2.2
  show iblk m c 0 t _ = _
  unfold iblk
  rw [View.read_apply]
  show V m c main_arg0 _ = _
  rw [V_main_arg0]
  refine congrArg _ (funext fun a => Fin.ext ?_)
  match a with
  | ⟨0, _⟩ => show win0_0.index t (0 : Fin 3) * 1 + 1 * (k0_off1 (grid0.coords t) (0 : Fin 3) + 1 * (0 : ℕ)) = t.val / 8; omega
  | ⟨1, _⟩ => show win0_0.index t (1 : Fin 3) * 2048 + 1 * (k0_off1 (grid0.coords t) (1 : Fin 3) + 1 * r.val) = 256 * (t.val % 8) + r.val; omega
  | ⟨2, _⟩ => show win0_0.index t (2 : Fin 3) * 1024 + 1 * (k0_off1 (grid0.coords t) (2 : Fin 3) + 1 * e.val) = e.val; omega

/-- The batch's whole block of x. -/
theorem xblock_read (c : Dev nD) (t : Fin cfg0.N) (n : Fin 2048) (e : Fin 1024) :
    iblk m c 0 t (ix3 (0 : Fin 1) n e) = m ((c : Thread nD τ).loc main_arg0) (ix3 (batchOf t) n e) := by
  obtain ⟨e0, e1, e2⟩ := (grid_facts t).1
  unfold iblk
  rw [View.read_apply]
  show V m c main_arg0 _ = _
  rw [V_main_arg0]
  refine congrArg _ (funext fun a => Fin.ext ?_)
  match a with
  | ⟨0, _⟩ => show win0_0.index t (0 : Fin 3) * 1 + 1 * (0 : ℕ) = t.val / 8; omega
  | ⟨1, _⟩ => show win0_0.index t (1 : Fin 3) * 2048 + 1 * n.val = n.val; omega
  | ⟨2, _⟩ => show win0_0.index t (2 : Fin 3) * 1024 + 1 * e.val = e.val; omega

/-- W_k's block is the array. -/
theorem wk_read (c : Dev nD) (t : Fin cfg0.N) (e d : Fin 1024) :
    iblk m c 1 t (ix2 e d) = m ((c : Thread nD τ).loc main_arg1) (ix2 e d) := by
  obtain ⟨e0, e1⟩ := (grid_facts t).2.1
  unfold iblk
  rw [View.read_apply]
  show V m c main_arg1 _ = _
  rw [V_main_arg1]
  refine congrArg _ (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

/-- W_q's block is the array. -/
theorem wq_read (c : Dev nD) (t : Fin cfg0.N) (e d : Fin 1024) :
    iblk m c 3 t (ix2 e d) = m ((c : Thread nD τ).loc main_arg3) (ix2 e d) := by
  obtain ⟨e0, e1⟩ := (grid_facts t).2.2.2.1
  unfold iblk
  rw [View.read_apply]
  show V m c main_arg3 _ = _
  rw [V_main_arg3]
  refine congrArg _ (funext fun a => Fin.ext ?_)
  match a with
  | ⟨0, _⟩ => show win0_3.index t (0 : Fin 2) * 1024 + 1 * e.val = e.val; omega
  | ⟨1, _⟩ => show win0_3.index t (1 : Fin 2) * 1024 + 1 * d.val = d.val; omega

/-- W_v's block is the array. -/
theorem wv_read (c : Dev nD) (t : Fin cfg0.N) (e d : Fin 1024) :
    iblk m c 5 t (ix2 e d) = m ((c : Thread nD τ).loc main_arg5) (ix2 e d) := by
  obtain ⟨e0, e1⟩ := (grid_facts t).2.2.2.2.2.1
  unfold iblk
  rw [View.read_apply]
  show V m c main_arg5 _ = _
  rw [V_main_arg5]
  refine congrArg _ (funext fun a => Fin.ext ?_)
  match a with
  | ⟨0, _⟩ => show win0_5.index t (0 : Fin 2) * 1024 + 1 * e.val = e.val; omega
  | ⟨1, _⟩ => show win0_5.index t (1 : Fin 2) * 1024 + 1 * d.val = d.val; omega

/-- The host's reshape of the keys' bias to a [1, 1024] row. -/
theorem V_main_v0 (c : Dev nD) : (V m c main_v0 : S1x1024.Idx → EReal) = shapeCast S1x1024 (m ((c : Thread nD τ).loc main_arg2)) shapeCasts_S1024_S1x1024 := by
  dsimp only [V, hostOps0]
  after_results
  rfl

/-- the keys' bias, entry by entry. -/
theorem bk_read (c : Dev nD) (t : Fin cfg0.N) (d : Fin 1024) :
    iblk m c 2 t (ix2 (0 : Fin 1) d) = m ((c : Thread nD τ).loc main_arg2) (ix1 d) := by
  obtain ⟨e0, e1⟩ := (grid_facts t).2.2.1
  unfold iblk
  rw [View.read_apply]
  show V m c main_v0 _ = _
  rw [V_main_v0]
  refine shapeCast_apply _ _ _ (ix1 d) ?_
  rw [Shape.rowMajor_val_one, Shape.rowMajor_val_two]
  show d.val = (win0_2.index t (0 : Fin 2) * 1 + 1 * 0) * 1024 + (win0_2.index t (1 : Fin 2) * 1024 + 1 * d.val)
  omega

/-- The host's reshape of the queries' bias to a [1, 1024] row. -/
theorem V_main_v1 (c : Dev nD) : (V m c main_v1 : S1x1024.Idx → EReal) = shapeCast S1x1024 (m ((c : Thread nD τ).loc main_arg4)) shapeCasts_S1024_S1x1024 := by
  dsimp only [V, hostOps0]
  after_results
  rfl

/-- the queries' bias, entry by entry. -/
theorem bq_read (c : Dev nD) (t : Fin cfg0.N) (d : Fin 1024) :
    iblk m c 4 t (ix2 (0 : Fin 1) d) = m ((c : Thread nD τ).loc main_arg4) (ix1 d) := by
  obtain ⟨e0, e1⟩ := (grid_facts t).2.2.2.2.1
  unfold iblk
  rw [View.read_apply]
  show V m c main_v1 _ = _
  rw [V_main_v1]
  refine shapeCast_apply _ _ _ (ix1 d) ?_
  rw [Shape.rowMajor_val_one, Shape.rowMajor_val_two]
  show d.val = (win0_4.index t (0 : Fin 2) * 1 + 1 * 0) * 1024 + (win0_4.index t (1 : Fin 2) * 1024 + 1 * d.val)
  omega

/-- The host's reshape of the values' bias to a [1, 1024] row. -/
theorem V_main_v2 (c : Dev nD) : (V m c main_v2 : S1x1024.Idx → EReal) = shapeCast S1x1024 (m ((c : Thread nD τ).loc main_arg6)) shapeCasts_S1024_S1x1024 := by
  dsimp only [V, hostOps0]
  after_results
  rfl

/-- the values' bias, entry by entry. -/
theorem bv_read (c : Dev nD) (t : Fin cfg0.N) (d : Fin 1024) :
    iblk m c 6 t (ix2 (0 : Fin 1) d) = m ((c : Thread nD τ).loc main_arg6) (ix1 d) := by
  obtain ⟨e0, e1⟩ := (grid_facts t).2.2.2.2.2.2.1
  unfold iblk
  rw [View.read_apply]
  show V m c main_v2 _ = _
  rw [V_main_v2]
  refine shapeCast_apply _ _ _ (ix1 d) ?_
  rw [Shape.rowMajor_val_one, Shape.rowMajor_val_two]
  show d.val = (win0_6.index t (0 : Fin 2) * 1 + 1 * 0) * 1024 + (win0_6.index t (1 : Fin 2) * 1024 + 1 * d.val)
  omega

/-- The host's reshape of the normalisation's scale to a [1, 1024] row. -/
theorem V_main_v3 (c : Dev nD) : (V m c main_v3 : S1x1024.Idx → EReal) = shapeCast S1x1024 (m ((c : Thread nD τ).loc main_arg7)) shapeCasts_S1024_S1x1024 := by
  dsimp only [V, hostOps0]
  after_results
  rfl

/-- the normalisation's scale, entry by entry. -/
theorem gamma_read (c : Dev nD) (t : Fin cfg0.N) (d : Fin 1024) :
    iblk m c 7 t (ix2 (0 : Fin 1) d) = m ((c : Thread nD τ).loc main_arg7) (ix1 d) := by
  obtain ⟨e0, e1⟩ := (grid_facts t).2.2.2.2.2.2.2.1
  unfold iblk
  rw [View.read_apply]
  show V m c main_v3 _ = _
  rw [V_main_v3]
  refine shapeCast_apply _ _ _ (ix1 d) ?_
  rw [Shape.rowMajor_val_one, Shape.rowMajor_val_two]
  show d.val = (win0_7.index t (0 : Fin 2) * 1 + 1 * 0) * 1024 + (win0_7.index t (1 : Fin 2) * 1024 + 1 * d.val)
  omega

/-- The host's reshape of the normalisation's shift to a [1, 1024] row. -/
theorem V_main_v4 (c : Dev nD) : (V m c main_v4 : S1x1024.Idx → EReal) = shapeCast S1x1024 (m ((c : Thread nD τ).loc main_arg8)) shapeCasts_S1024_S1x1024 := by
  dsimp only [V, hostOps0]
  after_results
  rfl

/-- the normalisation's shift, entry by entry. -/
theorem beta_read (c : Dev nD) (t : Fin cfg0.N) (d : Fin 1024) :
    iblk m c 8 t (ix2 (0 : Fin 1) d) = m ((c : Thread nD τ).loc main_arg8) (ix1 d) := by
  obtain ⟨e0, e1⟩ := (grid_facts t).2.2.2.2.2.2.2.2.1
  unfold iblk
  rw [View.read_apply]
  show V m c main_v4 _ = _
  rw [V_main_v4]
  refine shapeCast_apply _ _ _ (ix1 d) ?_
  rw [Shape.rowMajor_val_one, Shape.rowMajor_val_two]
  show d.val = (win0_8.index t (0 : Fin 2) * 1 + 1 * 0) * 1024 + (win0_8.index t (1 : Fin 2) * 1024 + 1 * d.val)
  omega

/-! ## What a point leaves: in both cases the three tiles of the scratch contents it ends with -/

/-- A batch's first tile. -/
theorem outs_first (c : Dev nD) (t : Fin cfg0.N) (h0 : t.val % 8 = 0) :
    outsAt0 m c t.val t.isLt = (oTile (grid0.coords t) (iblk m c 0 t) (iblk m c 4 t) (iblk m c 7 t) (iblk m c 8 t) (k0_pay6 (iblk m c 3 t)) (k0_pay7 (iblk m c 0 t) (iblk m c 1 t) (iblk m c 2 t)) (k0_pay8 (iblk m c 0 t) (iblk m c 5 t) (iblk m c 6 t)),
       aTile (grid0.coords t) (iblk m c 0 t) (iblk m c 4 t) (k0_pay6 (iblk m c 3 t)) (k0_pay7 (iblk m c 0 t) (iblk m c 1 t) (iblk m c 2 t)) (k0_pay8 (iblk m c 0 t) (iblk m c 5 t) (iblk m c 6 t)),
       wTile (grid0.coords t) (iblk m c 0 t) (iblk m c 4 t) (k0_pay6 (iblk m c 3 t)) (k0_pay7 (iblk m c 0 t) (iblk m c 1 t) (iblk m c 2 t)),
       (k0_pay6 (iblk m c 3 t)), (k0_pay7 (iblk m c 0 t) (iblk m c 1 t) (iblk m c 2 t)), (k0_pay8 (iblk m c 0 t) (iblk m c 5 t) (iblk m c 6 t))) := by
  rw [outsAt0_A m c t h0, Pieces.result_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), Pieces.attended_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), Pieces.weights_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), Pieces.wq_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), Pieces.keys_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), Pieces.values_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)]

/-- A later tile: the scratch is what the point before left. -/
theorem outs_later (c : Dev nD) (t : Fin cfg0.N) (h0 : ¬t.val % 8 = 0) :
    outsAt0 m c t.val t.isLt = (oTile (grid0.coords t) (iblk m c 0 t) (iblk m c 4 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
       aTile (grid0.coords t) (iblk m c 0 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
       wTile (grid0.coords t) (iblk m c 0 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1,
       (outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2) := by
  rw [outsAt0_B m c t h0, Pieces.result_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, Pieces.attended_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, Pieces.weights_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rfl

/-- So in both cases the outputs are the tiles of the scratch the point ends with. -/
theorem outs_tiles (c : Dev nD) (t : Fin cfg0.N) :
    (outsAt0 m c t.val t.isLt).1 = oTile (grid0.coords t) (iblk m c 0 t) (iblk m c 4 t) (iblk m c 7 t) (iblk m c 8 t) (outsAt0 m c t.val t.isLt).2.2.2.1 (outsAt0 m c t.val t.isLt).2.2.2.2.1 (outsAt0 m c t.val t.isLt).2.2.2.2.2
    ∧ (outsAt0 m c t.val t.isLt).2.1 = aTile (grid0.coords t) (iblk m c 0 t) (iblk m c 4 t) (outsAt0 m c t.val t.isLt).2.2.2.1 (outsAt0 m c t.val t.isLt).2.2.2.2.1 (outsAt0 m c t.val t.isLt).2.2.2.2.2
    ∧ (outsAt0 m c t.val t.isLt).2.2.1 = wTile (grid0.coords t) (iblk m c 0 t) (iblk m c 4 t) (outsAt0 m c t.val t.isLt).2.2.2.1 (outsAt0 m c t.val t.isLt).2.2.2.2.1 := by
  by_cases h0 : t.val % 8 = 0
  · rw [outs_first m c t h0]; dsimp only; exact ⟨rfl, rfl, rfl⟩
  · rw [outs_later m c t h0]; dsimp only; exact ⟨rfl, rfl, rfl⟩

/-! ## The scratch after every point of batch b: W_q, the batch's keys, the batch's values -/

/-- Scratch contents that are W_q and batch `b`'s keys and values, entry by entry. -/
def ScratchIs (c : Dev nD) (b : Fin 4) (s0 : Vec Ideal S1024x1024 .bf16) (s1 s2 : Vec Ideal S2048x1024 .bf16) : Prop :=
  (∀ e d : Fin 1024, s0 (ix2 e d) = (m ((c : Thread nD τ).loc main_arg3)) (ix2 e d))
  ∧ (∀ (l : Fin 2048) (d : Fin 1024), s1 (ix2 l d) = proj (m ((c : Thread nD τ).loc main_arg0)) (m ((c : Thread nD τ).loc main_arg1)) (m ((c : Thread nD τ).loc main_arg2)) b l d)
  ∧ (∀ (l : Fin 2048) (d : Fin 1024), s2 (ix2 l d) = proj (m ((c : Thread nD τ).loc main_arg0)) (m ((c : Thread nD τ).loc main_arg5)) (m ((c : Thread nD τ).loc main_arg6)) b l d)

/-- The first tile of a batch writes them. -/
theorem scratch_first (c : Dev nD) (t : Fin cfg0.N) (h0 : t.val % 8 = 0) :
    ScratchIs m c (batchOf t) (outsAt0 m c t.val t.isLt).2.2.2.1 (outsAt0 m c t.val t.isLt).2.2.2.2.1 (outsAt0 m c t.val t.isLt).2.2.2.2.2 := by
  rw [outs_first m c t h0]
  refine ⟨fun e d => ?_, fun l d => ?_, fun l d => ?_⟩
  · exact (congrFun (wq_entry (iblk m c 3 t)) (ix2 e d)).trans (wq_read m c t e d)
  · refine (keys_entry (iblk m c 0 t) (iblk m c 1 t) (iblk m c 2 t) l d).trans ?_
    unfold proj
    exact congrArg₂ (· + ·) (Finset.sum_congr rfl fun e _ => congrArg₂ (· * ·) (xblock_read m c t l e) (wk_read m c t e d)) (bk_read m c t d)
  · refine (values_entry (iblk m c 0 t) (iblk m c 5 t) (iblk m c 6 t) l d).trans ?_
    unfold proj
    exact congrArg₂ (· + ·) (Finset.sum_congr rfl fun e _ => congrArg₂ (· * ·) (xblock_read m c t l e) (wv_read m c t e d)) (bv_read m c t d)

/-- A later tile keeps them: the point before is of the same batch. -/
theorem scratch_later (c : Dev nD) (t : Fin cfg0.N) (h0 : ¬t.val % 8 = 0) (b' : Fin 4) (hb : b'.val = (t.val - 1) / 8)
    (ih : ScratchIs m c b' (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) :
    ScratchIs m c (batchOf t) (outsAt0 m c t.val t.isLt).2.2.2.1 (outsAt0 m c t.val t.isLt).2.2.2.2.1 (outsAt0 m c t.val t.isLt).2.2.2.2.2 := by
  rw [outs_later m c t h0]
  have e : b' = batchOf t := Fin.ext (by show b'.val = t.val / 8; omega)
  rw [← e]
  exact ih

/-- By induction over the grid points in their order. -/
theorem scratch_inv (c : Dev nD) : ∀ (n : ℕ) (h : n < cfg0.N),
    ScratchIs m c (batchOf ⟨n, h⟩) (outsAt0 m c n h).2.2.2.1 (outsAt0 m c n h).2.2.2.2.1 (outsAt0 m c n h).2.2.2.2.2
  | 0, h => scratch_first m c ⟨0, h⟩ rfl
  | n + 1, h => by
    by_cases h0 : (n + 1) % 8 = 0
    · exact scratch_first m c ⟨n + 1, h⟩ h0
    · exact scratch_later m c ⟨n + 1, h⟩ h0 (batchOf ⟨n, Nat.lt_of_succ_lt h⟩) rfl (scratch_inv c n (Nat.lt_of_succ_lt h))

/-! ## A point's output blocks are the specification's entries of its rows -/

theorem weights_at (c : Dev nD) (t : Fin cfg0.N) (r : Fin 256) (k : Fin 2048) :
    (outsAt0 m c t.val t.isLt).2.2.1 (ix3 (0 : Fin 1) r k) = weight (m ((c : Thread nD τ).loc main_arg0)) (m ((c : Thread nD τ).loc main_arg1)) (m ((c : Thread nD τ).loc main_arg2)) (m ((c : Thread nD τ).loc main_arg3)) (m ((c : Thread nD τ).loc main_arg4)) (batchOf t) (rowOf t r) k := by
  obtain ⟨hs0, hs1, hs2⟩ := scratch_inv m c t.val t.isLt
  refine (congrFun (outs_tiles m c t).2.2 _).trans ?_
  exact wTile_entry (m ((c : Thread nD τ).loc main_arg0)) (m ((c : Thread nD τ).loc main_arg1)) (m ((c : Thread nD τ).loc main_arg2)) (m ((c : Thread nD τ).loc main_arg3)) (m ((c : Thread nD τ).loc main_arg4)) (grid0.coords t) (iblk m c 0 t) (iblk m c 4 t) (outsAt0 m c t.val t.isLt).2.2.2.1 (outsAt0 m c t.val t.isLt).2.2.2.2.1
    (batchOf t) (rowOf t) (xrows_read m c t) (bq_read m c t) hs0 hs1 r k

theorem attended_at (c : Dev nD) (t : Fin cfg0.N) (r : Fin 256) (d : Fin 1024) :
    (outsAt0 m c t.val t.isLt).2.1 (ix3 (0 : Fin 1) r d) = att (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batchOf t) (rowOf t r) d := by
  obtain ⟨hs0, hs1, hs2⟩ := scratch_inv m c t.val t.isLt
  refine (congrFun (outs_tiles m c t).2.1 _).trans ?_
  exact aTile_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (grid0.coords t) (iblk m c 0 t) (iblk m c 4 t) (outsAt0 m c t.val t.isLt).2.2.2.1 (outsAt0 m c t.val t.isLt).2.2.2.2.1 (outsAt0 m c t.val t.isLt).2.2.2.2.2
    (batchOf t) (rowOf t) (xrows_read m c t) (bq_read m c t) hs0 hs1 hs2 r d

theorem result_left_at (c : Dev nD) (t : Fin cfg0.N) (r : Fin 256) (j : Fin 1024) :
    (outsAt0 m c t.val t.isLt).1 (ix3 (0 : Fin 1) r (⟨j.val, by have := j.isLt; omega⟩ : Fin 2048)) = (m ((c : Thread nD τ).loc main_arg0)) (ix3 (batchOf t) (rowOf t r) j) := by
  refine (congrFun (outs_tiles m c t).1 _).trans ?_
  exact oTile_entry_left (m ((c : Thread nD τ).loc main_arg0)) (grid0.coords t) (iblk m c 0 t) (iblk m c 4 t) (iblk m c 7 t) (iblk m c 8 t) (outsAt0 m c t.val t.isLt).2.2.2.1 (outsAt0 m c t.val t.isLt).2.2.2.2.1 (outsAt0 m c t.val t.isLt).2.2.2.2.2
    (batchOf t) (rowOf t) (xrows_read m c t) r j

theorem result_right_at (c : Dev nD) (t : Fin cfg0.N) (r : Fin 256) (j : Fin 1024) :
    (outsAt0 m c t.val t.isLt).1 (ix3 (0 : Fin 1) r (⟨1024 + j.val, by have := j.isLt; omega⟩ : Fin 2048))
      = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batchOf t) (rowOf t r) j := by
  obtain ⟨hs0, hs1, hs2⟩ := scratch_inv m c t.val t.isLt
  refine (congrFun (outs_tiles m c t).1 _).trans ?_
  exact oTile_entry_right (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (grid0.coords t) (iblk m c 0 t) (iblk m c 4 t) (iblk m c 7 t) (iblk m c 8 t) (outsAt0 m c t.val t.isLt).2.2.2.1 (outsAt0 m c t.val t.isLt).2.2.2.2.1 (outsAt0 m c t.val t.isLt).2.2.2.2.2
    (batchOf t) (rowOf t) (xrows_read m c t) (bq_read m c t) (gamma_read m c t) (beta_read m c t) hs0 hs1 hs2 r j

/-! ## The blocks a point writes back are blocks of the specification's arrays -/

/-- Where block entry (0, r, j) of result 2 sits in its array: batch, row 256·(t % 8) + r, column j. -/
theorem emb11 (t : Fin cfg0.N) (r : Fin 256) (j : Fin 2048) :
    ((cfg0.win 11).blk t).view.emb (ix3 (0 : Fin 1) r j) = ix3 (batchOf t) (rowOf t r) j := by
  obtain ⟨e0, e1, e2⟩ := (grid_facts t).2.2.2.2.2.2.2.2.2.2.2.1
  refine funext fun a => Fin.ext ?_
  match a with
  | ⟨0, _⟩ => show win0_11.index t (0 : Fin 3) * 1 + 1 * (0 : ℕ) = t.val / 8; omega
  | ⟨1, _⟩ => show win0_11.index t (1 : Fin 3) * 256 + 1 * r.val = 256 * (t.val % 8) + r.val; omega
  | ⟨2, _⟩ => show win0_11.index t (2 : Fin 3) * 2048 + 1 * j.val = j.val; omega

/-- Where block entry (0, r, j) of result 1 sits in its array: batch, row 256·(t % 8) + r, column j. -/
theorem emb10 (t : Fin cfg0.N) (r : Fin 256) (j : Fin 1024) :
    ((cfg0.win 10).blk t).view.emb (ix3 (0 : Fin 1) r j) = ix3 (batchOf t) (rowOf t r) j := by
  obtain ⟨e0, e1, e2⟩ := (grid_facts t).2.2.2.2.2.2.2.2.2.2.1
  refine funext fun a => Fin.ext ?_
  match a with
  | ⟨0, _⟩ => show win0_10.index t (0 : Fin 3) * 1 + 1 * (0 : ℕ) = t.val / 8; omega
  | ⟨1, _⟩ => show win0_10.index t (1 : Fin 3) * 256 + 1 * r.val = 256 * (t.val % 8) + r.val; omega
  | ⟨2, _⟩ => show win0_10.index t (2 : Fin 3) * 1024 + 1 * j.val = j.val; omega

/-- Where block entry (0, r, j) of result 0 sits in its array: batch, row 256·(t % 8) + r, column j. -/
theorem emb9 (t : Fin cfg0.N) (r : Fin 256) (j : Fin 2048) :
    ((cfg0.win 9).blk t).view.emb (ix3 (0 : Fin 1) r j) = ix3 (batchOf t) (rowOf t r) j := by
  obtain ⟨e0, e1, e2⟩ := (grid_facts t).2.2.2.2.2.2.2.2.2.1
  refine funext fun a => Fin.ext ?_
  match a with
  | ⟨0, _⟩ => show win0_9.index t (0 : Fin 3) * 1 + 1 * (0 : ℕ) = t.val / 8; omega
  | ⟨1, _⟩ => show win0_9.index t (1 : Fin 3) * 256 + 1 * r.val = 256 * (t.val % 8) + r.val; omega
  | ⟨2, _⟩ => show win0_9.index t (2 : Fin 3) * 2048 + 1 * j.val = j.val; omega

/-- A block index of a [1, 256, 2048] block is (0, r, j). -/
theorem unit_row2048 (y : S1x256x2048.Idx) : ∃ (r : Fin 256) (j : Fin 2048), y = ix3 (0 : Fin 1) r j :=
  ⟨y 1, y 2, (eq_ix3 y).trans (congrArg (fun z => ix3 z (y 1) (y 2))
    (Fin.ext (by show (y 0).val = 0; have h : (y 0).val < 1 := (y 0).isLt; omega)))⟩

/-- A block index of a [1, 256, 1024] block is (0, r, j). -/
theorem unit_row1024 (y : S1x256x1024.Idx) : ∃ (r : Fin 256) (j : Fin 1024), y = ix3 (0 : Fin 1) r j :=
  ⟨y 1, y 2, (eq_ix3 y).trans (congrArg (fun z => ix3 z (y 1) (y 2))
    (Fin.ext (by show (y 0).val = 0; have h : (y 0).val < 1 := (y 0).isLt; omega)))⟩

theorem weights_blk (c : Dev nD) (t : Fin cfg0.N) (y : S1x256x2048.Idx) :
    (outsAt0 m c t.val t.isLt).2.2.1 y = weightArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 11).blk t).view.emb y) := by
  obtain ⟨r, j, rfl⟩ := unit_row2048 y
  rw [emb11 t r j]
  exact weights_at m c t r j

theorem attended_blk (c : Dev nD) (t : Fin cfg0.N) (y : S1x256x1024.Idx) :
    (outsAt0 m c t.val t.isLt).2.1 y = attArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  obtain ⟨r, j, rfl⟩ := unit_row1024 y
  rw [emb10 t r j]
  exact attended_at m c t r j

theorem result_blk (c : Dev nD) (t : Fin cfg0.N) (y : S1x256x2048.Idx) :
    (outsAt0 m c t.val t.isLt).1 y = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  obtain ⟨r, j, rfl⟩ := unit_row2048 y
  rw [emb9 t r j]
  obtain ⟨jv, hj⟩ := j
  by_cases hlt : jv < 1024
  · exact (result_left_at m c t r ⟨jv, hlt⟩).trans (outArr_left (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batchOf t) (rowOf t r) ⟨jv, hlt⟩).symm
  · obtain ⟨j', rfl⟩ : ∃ j', jv = 1024 + j' := ⟨jv - 1024, by omega⟩
    exact (result_right_at m c t r ⟨j', by omega⟩).trans (outArr_right (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batchOf t) (rowOf t r) ⟨j', by omega⟩).symm

theorem flushed9_eq (c : Dev nD) (t : Fin cfg0.N) :
    (dats m 0 c).flushed 9 t = ((cfg0.win 9).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9]
  funext y
  exact result_blk m c t y

theorem flushed10_eq (c : Dev nD) (t : Fin cfg0.N) :
    (dats m 0 c).flushed 10 t = ((cfg0.win 10).blk t).view.read (Elt Ideal) (attArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed10]
  funext y
  exact attended_blk m c t y

theorem flushed11_eq (c : Dev nD) (t : Fin cfg0.N) :
    (dats m 0 c).flushed 11 t = ((cfg0.win 11).blk t).view.read (Elt Ideal) (weightArr (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed11]
  funext y
  exact weights_blk m c t y

/-! ## The 32 blocks of each result tile its array -/

/-- An index of result 0's array is in point `t`'s block iff each coordinate is in the block's range on its axis. -/
theorem mem_blk9 (t : Fin cfg0.N) (i : S4x2048x2048.Idx) :
    i ∈ ((cfg0.win 9).blk t).view.set ↔ ∀ a : Fin 3, win0_9.index t a * S1x256x2048.size a ≤ (i a).val ∧ (i a).val < win0_9.index t a * S1x256x2048.size a + S1x256x2048.size a := by
  show i ∈ ((View.whole main_v5_0).slice (win0_9.rect t)).set ↔ _
  rw [View.set_slice_whole, Rect.mem_set_unit]
  exact Iff.rfl

/-- Every index of the array is in the block of the point of its batch and query tile. -/
theorem cover9 (i : S4x2048x2048.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 2048 := (i 2).isLt
  obtain ⟨t, ht⟩ : ∃ t : Fin cfg0.N, t.val = 8 * (i 0).val + (i 1).val / 256 :=
    ⟨⟨8 * (i 0).val + (i 1).val / 256, lt_of_lt_of_eq (by omega : 8 * (i 0).val + (i 1).val / 256 < 32) N_0.symm⟩, rfl⟩
  obtain ⟨e0, e1, e2⟩ := (grid_facts t).2.2.2.2.2.2.2.2.2.1
  refine ⟨t, flush0_9 t, (mem_blk9 t i).mpr fun a => ?_⟩
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 2048 ≤ (i 2).val ∧ (i 2).val < win0_9.index t (2 : Fin 3) * 2048 + 2048; omega

/-- An index of result 1's array is in point `t`'s block iff each coordinate is in the block's range on its axis. -/
theorem mem_blk10 (t : Fin cfg0.N) (i : S4x2048x1024.Idx) :
    i ∈ ((cfg0.win 10).blk t).view.set ↔ ∀ a : Fin 3, win0_10.index t a * S1x256x1024.size a ≤ (i a).val ∧ (i a).val < win0_10.index t a * S1x256x1024.size a + S1x256x1024.size a := by
  show i ∈ ((View.whole main_v5_1).slice (win0_10.rect t)).set ↔ _
  rw [View.set_slice_whole, Rect.mem_set_unit]
  exact Iff.rfl

/-- Every index of the array is in the block of the point of its batch and query tile. -/
theorem cover10 (i : S4x2048x1024.Idx) : ∃ t : Fin cfg0.N, (cfg0.win 10).flush t = true ∧ i ∈ ((cfg0.win 10).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = 8 * (i 0).val + (i 1).val / 256 :=
    ⟨⟨8 * (i 0).val + (i 1).val / 256, lt_of_lt_of_eq (by omega : 8 * (i 0).val + (i 1).val / 256 < 32) N_0.symm⟩, rfl⟩
  obtain ⟨e0, e1, e2⟩ := (grid_facts t).2.2.2.2.2.2.2.2.2.2.1
  refine ⟨t, flush0_10 t, (mem_blk10 t i).mpr fun a => ?_⟩
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

/-- An index of result 2's array is in point `t`'s block iff each coordinate is in the block's range on its axis. -/
theorem mem_blk11 (t : Fin cfg0.N) (i : S4x2048x2048.Idx) :
    i ∈ ((cfg0.win 11).blk t).view.set ↔ ∀ a : Fin 3, win0_11.index t a * S1x256x2048.size a ≤ (i a).val ∧ (i a).val < win0_11.index t a * S1x256x2048.size a + S1x256x2048.size a := by
  show i ∈ ((View.whole main_v5_2).slice (win0_11.rect t)).set ↔ _
  rw [View.set_slice_whole, Rect.mem_set_unit]
  exact Iff.rfl

/-- Every index of the array is in the block of the point of its batch and query tile. -/
theorem cover11 (i : S4x2048x2048.Idx) : ∃ t : Fin cfg0.N, (cfg0.win 11).flush t = true ∧ i ∈ ((cfg0.win 11).blk t).view.set := by
  have h0 : (i 0).val < 4 := (i 0).isLt
  have h1 : (i 1).val < 2048 := (i 1).isLt
  have h2 : (i 2).val < 2048 := (i 2).isLt
  obtain ⟨t, ht⟩ : ∃ t : Fin cfg0.N, t.val = 8 * (i 0).val + (i 1).val / 256 :=
    ⟨⟨8 * (i 0).val + (i 1).val / 256, lt_of_lt_of_eq (by omega : 8 * (i 0).val + (i 1).val / 256 < 32) N_0.symm⟩, rfl⟩
  obtain ⟨e0, e1, e2⟩ := (grid_facts t).2.2.2.2.2.2.2.2.2.2.2.1
  refine ⟨t, flush0_11 t, (mem_blk11 t i).mpr fun a => ?_⟩
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 2048 ≤ (i 2).val ∧ (i 2).val < win0_11.index t (2 : Fin 3) * 2048 + 2048; omega

/-! ## The result arrays after the run -/

theorem final9 (c : Dev nD) : (dats m 0 c).arrAt 9 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed9_eq m c t) cover9

theorem final10 (c : Dev nD) : (dats m 0 c).arrAt 10 cfg0.N = attArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 10 _ (fun t _ => flushed10_eq m c t) cover10

theorem final11 (c : Dev nD) : (dats m 0 c).arrAt 11 cfg0.N = weightArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 11 _ (fun t _ => flushed11_eq m c t) cover11

/-- The kernel's run at exact arithmetic: every weakly fair execution terminates with the three results at the
    specification's arrays of the arguments and the arguments unchanged. -/
theorem run : θ_run defs (onTc (τ := τ) (main (F := Ideal))) ⟨m, fun _ => 0, ρ⟩ fun r => ∀ c : Dev nD,
      r.2.mem ((c : Thread nD τ).loc main_v5_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_1) = attArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v5_2) = weightArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2.1.trans (final11 m c), (h c).2.2.2⟩)
    (Cert.KernelIdeal.Value.run_blocks m ρ)

end Cert.KernelIdeal.AttnValue

end
-- ==== Proof.RefValue.lean ====
/- The reference, stage by stage, is the specification: its three projections, its scaled scores (the quotient by
   sqrt 1024 is the product with 1/32), its softmax rows (the extra maximum with −∞ changes nothing), its attended values,
   its layer normalisation and the final concatenation. -/
import proofs.«106411_j83932250898666_2_alg».proof.Proof.RefReadP
import proofs.«106411_j83932250898666_2_alg».proof.Proof.Spec
import proofs.«106411_j83932250898666_2_alg».proof.Proof.Consts
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.AttnSpec
open Idealize.ShloMosaic Idealize.ShloMosaic.ValueIdx

/-! ## The three projections -/

/-- The reference's keys. -/
theorem keys_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (i : S4x2048x1024.Idx) :
    val_main_v3 (F := Ideal) x0 x1 x2 i = proj x0 x1 x2 (i 0) (i 1) (i 2) := by
  rw [val_main_v3_apply, val_main_v0_apply, val_main_v2_apply, val_main_v1_apply]
  unfold proj
  refine congrArg₂ (· + ·) (Finset.sum_congr rfl fun d _ => congrArg₂ (· * ·) (congrArg x0 ?_) (congrArg x1 ?_)) (congrArg x2 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The reference's queries. -/
theorem query_eq (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (i : S4x2048x1024.Idx) :
    val_main_v7 (F := Ideal) x0 x3 x4 i = proj x0 x3 x4 (i 0) (i 1) (i 2) := by
  rw [val_main_v7_apply, val_main_v4_apply, val_main_v6_apply, val_main_v5_apply]
  unfold proj
  refine congrArg₂ (· + ·) (Finset.sum_congr rfl fun d _ => congrArg₂ (· * ·) (congrArg x0 ?_) (congrArg x3 ?_)) (congrArg x4 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The reference's values. -/
theorem value_eq (x0 : (⟨S4x2048x1024, .f32⟩ : BufTy).Contents (Elt Ideal)) (x5 : (⟨S1024x1024, .f32⟩ : BufTy).Contents (Elt Ideal)) (x6 : (⟨S1024, .f32⟩ : BufTy).Contents (Elt Ideal)) (i : S4x2048x1024.Idx) :
    val_main_v11 (F := Ideal) x0 x5 x6 i = proj x0 x5 x6 (i 0) (i 1) (i 2) := by
  rw [val_main_v11_apply, val_main_v8_apply, val_main_v10_apply, val_main_v9_apply]
  unfold proj
  refine congrArg₂ (· + ·) (Finset.sum_congr rfl fun d _ => congrArg₂ (· * ·) (congrArg x0 ?_) (congrArg x5 ?_)) (congrArg x6 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-! ## The scores and the softmax -/

section Softmax

variable (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))

/-- The reference's scaled scores: the quotient by `sqrt 1024.0` is the product with 1/32. -/
theorem score_eq (i : S4x2048x2048.Idx) :
    val_main_v15 (F := Ideal) x0 x1 x2 x3 x4 i = score (proj x0 x3 x4) (proj x0 x1 x2) (i 0) (i 1) (i 2) := by
  rw [val_main_v15_apply, val_main_v12_apply, val_main_v14_apply, val_main_v13_apply, val_main_cst_apply]
  show Ideal.div _ (Ideal.sqrt (Ideal.ofBits .f32 0x44800000#32)) = _
  rw [Cert.AttnConsts.div_sqrt_1024]
  unfold score
  refine congrArg (· * _) (Finset.sum_congr rfl fun k _ => ?_)
  rw [query_eq, keys_eq]
  rfl

/-- The reference's row maximum: the reduce over the last axis, whose further maximum with −∞ changes nothing. -/
theorem rowmax_eq (j : S4x2048.Idx) :
    val_main_v18 (F := Ideal) x0 x1 x2 x3 x4 j = rowMax (fun k => score (proj x0 x3 x4) (proj x0 x1 x2) (j 0) (j 1) k) := by
  rw [val_main_v18_apply, val_main_v17_apply, val_main_cst_1_apply]
  unfold val_main_v16
  have hred : Host.reduce (FloatOps.maximumf : Ideal .f32 → Ideal .f32 → Ideal .f32) (val_main_v15 (F := Ideal) x0 x1 x2 x3 x4)
        (val_main_cst_0 (F := Ideal)) reducesTo_S4x2048x2048_S4x2048_d2 h_S_ j
      = rowMax (fun k => score (proj x0 x3 x4) (proj x0 x1 x2) (j 0) (j 1) k) := by
    refine (Host.reduce_eq_fold_single (FloatOps.maximumf : Ideal .f32 → Ideal .f32 → Ideal .f32) _ _
      reducesTo_S4x2048x2048_S4x2048_d2 (by decide) h_S_ j).trans ?_
    unfold rowMax
    refine congrArg (fun g => Finset.fold max (Ideal.ofBits .f32 0xFF800000#32) g (Finset.univ : Finset (Fin 2048))) (funext fun k => ?_)
    show val_main_v15 (F := Ideal) x0 x1 x2 x3 x4 _ = _
    rw [score_eq]
    rfl
  show max (Ideal.ofBits .f32 0xFF800000#32) (Host.reduce (FloatOps.maximumf : Ideal .f32 → Ideal .f32 → Ideal .f32) _ _ _ _ j) = _
  rw [hred]
  unfold rowMax
  exact max_eq_right ((Finset.le_fold_max _).mpr (Or.inl le_rfl))

/-- The reference's exponentials. -/
theorem rowexp_eq (i : S4x2048x2048.Idx) :
    val_main_v22 (F := Ideal) x0 x1 x2 x3 x4 i = rowExp (fun k => score (proj x0 x3 x4) (proj x0 x1 x2) (i 0) (i 1) k) (i 2) := by
  rw [val_main_v22_apply, val_main_v21_apply, val_main_v20_apply, val_main_v19_apply, rowmax_eq, score_eq]
  rfl

/-- The reference's row sums of the exponentials (its initial value is 0). -/
theorem rowsum_eq (j : S4x2048.Idx) :
    val_main_v23 (F := Ideal) x0 x1 x2 x3 x4 j = ∑ k : Fin 2048, rowExp (fun k => score (proj x0 x3 x4) (proj x0 x1 x2) (j 0) (j 1) k) k := by
  rw [val_main_v23_apply]
  show Ideal.ofBits .f32 0x00000000#32 + _ = _
  rw [Ideal.ofBits_zero_f32, zero_add]
  refine Finset.sum_congr rfl fun k _ => ?_
  rw [rowexp_eq]
  rfl

/-- The reference's attention weights. -/
theorem weight_eq (i : S4x2048x2048.Idx) :
    val_main_v26 (F := Ideal) x0 x1 x2 x3 x4 i = weight x0 x1 x2 x3 x4 (i 0) (i 1) (i 2) := by
  rw [val_main_v26_apply, rowexp_eq, val_main_v25_apply, val_main_v24_apply, rowsum_eq]
  rfl

end Softmax

/-! ## The attended values, the layer normalisation, the concatenation -/

section Rest

variable (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 x8 : (⟨S1024, .f32⟩ : BufTy).Contents (Elt Ideal))

/-- The reference's attended values. -/
theorem att_eq (i : S4x2048x1024.Idx) :
    val_main_v27 (F := Ideal) x0 x1 x2 x3 x4 x5 x6 i = att x0 x1 x2 x3 x4 x5 x6 (i 0) (i 1) (i 2) := by
  rw [val_main_v27_apply]
  unfold att
  refine Finset.sum_congr rfl fun k _ => ?_
  rw [weight_eq, value_eq]
  rfl

/-- The residual x + attended values. -/
theorem resid_eq (i : S4x2048x1024.Idx) :
    val_main_v28 (F := Ideal) x0 x1 x2 x3 x4 x5 x6 i = x0 (ix3 (i 0) (i 1) (i 2)) + att x0 x1 x2 x3 x4 x5 x6 (i 0) (i 1) (i 2) := by
  rw [val_main_v28_apply, att_eq]
  exact congrArg (fun z => x0 z + att x0 x1 x2 x3 x4 x5 x6 (i 0) (i 1) (i 2)) (eq_ix3 i)

/-- The reference's row means (its sum starts from 0). -/
theorem mean_eq (j : S4x2048x1.Idx) :
    val_main_v32 (F := Ideal) x0 x1 x2 x3 x4 x5 x6 j = rowMean (fun d => x0 (ix3 (j 0) (j 1) d) + att x0 x1 x2 x3 x4 x5 x6 (j 0) (j 1) d) := by
  rw [val_main_v32_apply, val_main_v30_apply, val_main_v29_apply, val_main_v31_apply, val_main_cst_4_apply, val_main_cst_3_apply]
  show Ideal.div (Ideal.ofBits .f32 0x00000000#32 + _) (Ideal.ofBits .f32 0x44800000#32) = _
  rw [Ideal.ofBits_zero_f32, zero_add]
  unfold rowMean
  refine congrArg (fun s => Ideal.div s (Ideal.ofBits .f32 0x44800000#32)) (Finset.sum_congr rfl fun k _ => ?_)
  rw [resid_eq]
  rfl

/-- The centred residual. -/
theorem dev_eq (i : S4x2048x1024.Idx) :
    val_main_v34 (F := Ideal) x0 x1 x2 x3 x4 x5 x6 i
      = (x0 (ix3 (i 0) (i 1) (i 2)) + att x0 x1 x2 x3 x4 x5 x6 (i 0) (i 1) (i 2)) - rowMean (fun d => x0 (ix3 (i 0) (i 1) d) + att x0 x1 x2 x3 x4 x5 x6 (i 0) (i 1) d) := by
  rw [val_main_v34_apply, val_main_v33_apply, resid_eq, mean_eq]
  rfl

/-- The reference's row variances. -/
theorem var_eq (j : S4x2048x1.Idx) :
    val_main_v39 (F := Ideal) x0 x1 x2 x3 x4 x5 x6 j = rowVar (fun d => x0 (ix3 (j 0) (j 1) d) + att x0 x1 x2 x3 x4 x5 x6 (j 0) (j 1) d) := by
  rw [val_main_v39_apply, val_main_v37_apply, val_main_v36_apply, val_main_v38_apply, val_main_cst_6_apply, val_main_cst_5_apply]
  show Ideal.div (Ideal.ofBits .f32 0x00000000#32 + _) (Ideal.ofBits .f32 0x44800000#32) = _
  rw [Ideal.ofBits_zero_f32, zero_add]
  unfold rowVar
  refine congrArg (fun s => Ideal.div s (Ideal.ofBits .f32 0x44800000#32)) (Finset.sum_congr rfl fun k _ => ?_)
  rw [val_main_v35_apply, dev_eq]
  rfl

/-- The reference's normalised residual. -/
theorem normed_eq (i : S4x2048x1024.Idx) :
    val_main_v52 (F := Ideal) x0 x1 x2 x3 x4 x5 x6 x7 x8 i = normed x0 x1 x2 x3 x4 x5 x6 x7 x8 (i 0) (i 1) (i 2) := by
  rw [val_main_v52_apply, val_main_v49_apply, val_main_v46_apply, val_main_v41_apply, val_main_v40_apply, val_main_v45_apply,
    val_main_v44_apply, val_main_v43_apply, val_main_v42_apply, val_main_cst_7_apply, val_main_v48_apply, val_main_v47_apply,
    val_main_v51_apply, val_main_v50_apply, resid_eq, mean_eq, var_eq]
  have e7 : idx_main_v47 (idx_main_v48 i) = ix1 (i 2) := funext fun a => match a with | ⟨0, _⟩ => rfl
  have e8 : idx_main_v50 (idx_main_v51 i) = ix1 (i 2) := funext fun a => match a with | ⟨0, _⟩ => rfl
  rw [e7, e8]
  rfl

/-- The reference's first result: the concatenation of x and the normalised residual along the last axis. -/
theorem out_eq (i : S4x2048x2048.Idx) :
    val_main_v53 (F := Ideal) x0 x1 x2 x3 x4 x5 x6 x7 x8 i = outArr x0 x1 x2 x3 x4 x5 x6 x7 x8 i := by
  unfold val_main_v53
  have h2 : (i 2).val < 2048 := (i 2).isLt
  by_cases hlt : (i 2).val < 1024
  · refine (concatenate_pair_apply_left (2 : Fin 3) x0 _ concatenates_S4x2048x1024_S4x2048x1024_S4x2048x2048_d2 i rfl
      (ix3 (i 0) (i 1) (⟨(i 2).val, hlt⟩ : Fin 1024)) (fun b => ?_)).trans ?_
    · match b with
      | ⟨0, _⟩ => rfl
      | ⟨1, _⟩ => rfl
      | ⟨2, _⟩ => rfl
    · unfold outArr
      rw [dif_pos hlt]
  · refine (concatenate_pair_apply_right (s₂ := S4x2048x1024) (2 : Fin 3) x0 (val_main_v52 (F := Ideal) x0 x1 x2 x3 x4 x5 x6 x7 x8) concatenates_S4x2048x1024_S4x2048x1024_S4x2048x2048_d2 i rfl rfl
      (ix3 (i 0) (i 1) (⟨(i 2).val - 1024, by omega⟩ : Fin 1024)) (fun b hb => ?_) ?_).trans ?_
    · match b with
      | ⟨0, _⟩ => rfl
      | ⟨1, _⟩ => rfl
      | ⟨2, _⟩ => exact absurd rfl hb
    · show (i 2).val - 1024 + 1024 = (i 2).val
      omega
    · rw [normed_eq]
      unfold outArr
      rw [dif_neg hlt]

/-- The three results of the reference are the specification's arrays. -/
theorem weight_arr : val_main_v26 (F := Ideal) x0 x1 x2 x3 x4 = weightArr x0 x1 x2 x3 x4 := funext fun i => weight_eq x0 x1 x2 x3 x4 i
theorem att_arr : val_main_v27 (F := Ideal) x0 x1 x2 x3 x4 x5 x6 = attArr x0 x1 x2 x3 x4 x5 x6 := funext fun i => att_eq x0 x1 x2 x3 x4 x5 x6 i
theorem out_arr : val_main_v53 (F := Ideal) x0 x1 x2 x3 x4 x5 x6 x7 x8 = outArr x0 x1 x2 x3 x4 x5 x6 x7 x8 := funext fun i => out_eq x0 x1 x2 x3 x4 x5 x6 x7 x8 i

end Rest

end Cert.ReferenceIdeal.RefValue

end
-- ==== Proof.lean ====
/- Fused attention block over x : f32[4, 2048, 1024]: keys, queries and values are x·W + b; the attention weights
   are the row softmax of query·keysᵀ / 32; the attended values are weights·values; the first result is x beside the
   layer normalisation of x + attended values, scaled by gamma and shifted by beta.
   The kernel computes, per batch b and per tile of 256 query rows, the same quantities: the keys and values of the
   batch (and a copy of W_q) are written into scratch arrays at the first tile of each batch and read back by the
   seven later tiles; the factor 1/32 multiplies the queries before the product with the keys instead of dividing the
   scores after it. On the extended reals a non-negative real factor moves across a finite sum, so the two
   scores agree entry by entry with no appeal to finiteness, and everything after the scores is the same
   expression on both sides: both programs end with the three arrays of Proof/Spec.lean (the kernel by
   Proof/KernelValue.lean, the reference by Proof/RefValue.lean). -/
import proofs.«106411_j83932250898666_2_alg».proof.Defs
import proofs.«106411_j83932250898666_2_alg».proof.Proof.Gen.Kernel
import proofs.«106411_j83932250898666_2_alg».proof.Proof.Gen.Kernel.Skeleton
import proofs.«106411_j83932250898666_2_alg».proof.Proof.Gen.Kernel.Launch
import proofs.«106411_j83932250898666_2_alg».proof.Proof.Gen.Kernel.Points
import proofs.«106411_j83932250898666_2_alg».proof.Proof.Gen.Kernel.Frame
import proofs.«106411_j83932250898666_2_alg».proof.Proof.Gen.KernelIdeal
import proofs.«106411_j83932250898666_2_alg».proof.Proof.Gen.KernelIdeal.Skeleton
import proofs.«106411_j83932250898666_2_alg».proof.Proof.Gen.KernelIdeal.Launch
import proofs.«106411_j83932250898666_2_alg».proof.Proof.Gen.KernelIdeal.Points
import proofs.«106411_j83932250898666_2_alg».proof.Proof.Gen.KernelIdeal.Frame
import proofs.«106411_j83932250898666_2_alg».proof.Proof.Gen.KernelIdeal.Value
import proofs.«106411_j83932250898666_2_alg».proof.Proof.Gen.ReferenceIdeal
import proofs.«106411_j83932250898666_2_alg».proof.Proof.Gen.Pre_finite_inputs
import proofs.«106411_j83932250898666_2_alg».proof.Proof.RefRunP
import proofs.«106411_j83932250898666_2_alg».proof.Proof.RefReadP
import proofs.«106411_j83932250898666_2_alg».proof.Proof.KernelValue
import proofs.«106411_j83932250898666_2_alg».proof.Proof.RefValue
import Idealize.ShloMosaic.Adequacy
import Idealize.ShloMosaic.Init

noncomputable section

namespace Cert.Proof

open Idealize.ShloMosaic Idealize.SL.Sem Cert.Kernel Cert.AttnSpec

theorem frame_k : Cert.frame_Kernel := fun m ρ _ => Cert.Kernel.Gen.frame m ρ
theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both idealized programs end with the specification's three arrays of arguments that agree. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => attArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => weightArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.AttnValue.run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [Cert.ReferenceIdeal.ReadP.val_main_v53_eq, Cert.ReferenceIdeal.RefValue.out_arr, a0, a1, a2, a3, a4, a5, a6, a7, a8]
  · rw [Cert.ReferenceIdeal.ReadP.val_main_v27_eq, Cert.ReferenceIdeal.RefValue.att_arr, a0, a1, a2, a3, a4, a5, a6]
  · rw [Cert.ReferenceIdeal.ReadP.val_main_v26_eq, Cert.ReferenceIdeal.RefValue.weight_arr, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
